-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S3072x1024 .f32) (main_arg2 : FVec F S3072 .f32) (main_arg3 : FVec F S1024x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4096x1024 : Shape := ⟨2, ![4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x3072 : Shape := ⟨2, ![1, 3072]⟩
abbrev S3x4096x1024 : Shape := ⟨3, ![3, 4096, 1024]⟩
abbrev S1x1024 : Shape := ⟨2, ![1, 1024]⟩
abbrev S1x1024x1024 : Shape := ⟨3, ![1, 1024, 1024]⟩
abbrev S3x4096x16x64 : Shape := ⟨4, ![3, 4096, 16, 64]⟩
abbrev S3x16x4096x64 : Shape := ⟨4, ![3, 16, 4096, 64]⟩
abbrev S1x16x4096x64 : Shape := ⟨4, ![1, 16, 4096, 64]⟩
abbrev S16x4096x64 : Shape := ⟨3, ![16, 4096, 64]⟩
abbrev S1x1024x64 : Shape := ⟨3, ![1, 1024, 64]⟩
abbrev S1x4096x64 : Shape := ⟨3, ![1, 4096, 64]⟩
abbrev S1024x64 : Shape := ⟨2, ![1024, 64]⟩
abbrev S1024x1 : Shape := ⟨2, ![1024, 1]⟩
abbrev S4096x16x64 : Shape := ⟨3, ![4096, 16, 64]⟩

abbrev nBuf : Space → Nat
  | .hbm => 23
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .bf16⟩
  | .hbm, ⟨6, _⟩ => ⟨S3072x1024, .bf16⟩
  | .hbm, ⟨7, _⟩ => ⟨S1024x1024, .bf16⟩
  | .hbm, ⟨8, _⟩ => ⟨S1x3072, .f32⟩
  | .hbm, ⟨9, _⟩ => ⟨S3x4096x1024, .bf16⟩
  | .hbm, ⟨10, _⟩ => ⟨S3x4096x16x64, .bf16⟩
  | .hbm, ⟨11, _⟩ => ⟨S3x16x4096x64, .bf16⟩
  | .hbm, ⟨12, _⟩ => ⟨S1x16x4096x64, .bf16⟩
  | .hbm, ⟨13, _⟩ => ⟨S16x4096x64, .bf16⟩
  | .hbm, ⟨14, _⟩ => ⟨S1x16x4096x64, .bf16⟩
  | .hbm, ⟨15, _⟩ => ⟨S16x4096x64, .bf16⟩
  | .hbm, ⟨16, _⟩ => ⟨S1x16x4096x64, .bf16⟩
  | .hbm, ⟨17, _⟩ => ⟨S16x4096x64, .bf16⟩
  | .hbm, ⟨18, _⟩ => ⟨S16x4096x64, .bf16⟩
  | .hbm, ⟨19, _⟩ => ⟨S4096x16x64, .bf16⟩
  | .hbm, ⟨20, _⟩ => ⟨S4096x1024, .bf16⟩
  | .hbm, ⟨21, _⟩ => ⟨S1x1024, .f32⟩
  | .hbm, ⟨22, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x4096x64, .bf16⟩
  | .local _ .vmem, ⟨11, _⟩ => ⟨S1x4096x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 4], ![false, false]⟩

def k1_mult1 : BitVec 32 :=
  let c0_i32 : BitVec 32 := 0#32
  let c1024_i32 : BitVec 32 := 1024#32
  let v5 : BitVec 32 := Scalar.muli c0_i32 c1024_i32
  v5
def k1_off1 (c0_i32 : BitVec 32) : Fin 3 → Nat :=
  let c0_4 : Index := 0#32
  let c1024_i32 : BitVec 32 := 1024#32
  let v5 : BitVec 32 := Scalar.muli c0_i32 c1024_i32
  let v6 : BitVec 32 := v5
  let v7 : Index := Scalar.indexCast v6
  let c0_5 : Index := 0#32
  ![0, v7.toNat, 0]
def k1_mult2 : BitVec 32 :=
  let c1_i32 : BitVec 32 := 1#32
  let c1024_i32_13 : BitVec 32 := 1024#32
  let v33 : BitVec 32 := Scalar.muli c1_i32 c1024_i32_13
  v33
def k1_mult3 : BitVec 32 :=
  let c2_i32 : BitVec 32 := 2#32
  let c1024_i32_23 : BitVec 32 := 1024#32
  let v61 : BitVec 32 := Scalar.muli c2_i32 c1024_i32_23
  v61
def k1_mult4 : BitVec 32 :=
  let c3_i32 : BitVec 32 := 3#32
  let c1024_i32_33 : BitVec 32 := 1024#32
  let v89 : BitVec 32 := Scalar.muli c3_i32 c1024_i32_33
  v89
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  shapeCasts_S3x4096x1024_S3x4096x16x64 : S3x4096x1024.ShapeCasts S3x4096x16x64
  transposes_S3x4096x16x64_S3x16x4096x64_0_2_1_3 : S3x4096x16x64.Transposes [0, 2, 1, 3] S3x16x4096x64
  slices_S3x16x4096x64_S1x16x4096x64_0_0_0_0 : S3x16x4096x64.Slices ![0, 0, 0, 0] S1x16x4096x64
  shapeCasts_S1x16x4096x64_S16x4096x64 : S1x16x4096x64.ShapeCasts S16x4096x64
  slices_S3x16x4096x64_S1x16x4096x64_1_0_0_0 : S3x16x4096x64.Slices ![1, 0, 0, 0] S1x16x4096x64
  slices_S3x16x4096x64_S1x16x4096x64_2_0_0_0 : S3x16x4096x64.Slices ![2, 0, 0, 0] S1x16x4096x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  transposes_S16x4096x64_S4096x16x64_1_0_2 : S16x4096x64.Transposes [1, 0, 2] S4096x16x64
  shapeCasts_S4096x16x64_S4096x1024 : S4096x16x64.ShapeCasts S4096x1024
  shapeCasts_S1024_S1x1024 : S1024.ShapeCasts S1x1024
  dot_S1024x1024_S1024x1024_S1024x1024_1_1_0_0_n_n_wf : DotDims.WF S1024x1024 S1024x1024 S1024x1024 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S3x4096x1024.size a
  hwx0_3 : ∀ i : grid0.Coords, EltTy.bits .bf16 = 32 ∨ (Rect.block (s := S3x4096x1024) S1x1024x1024.size (cc0_transform_3 i) (hinb0_3 i)).WholeWords (EltTy.packing .bf16)
  hrank1 : 0 < grid1.rank
  k1_mult1_dvd : 1024 ∣ k1_mult1.toNat
  k1_off1_inb : ∀ (r : Fin 4), ∀ a, (k1_off1 (BitVec.ofNat 32 r.val)) a + S1x1024x64.size a ≤ S1x4096x64.size a
  k1_mult2_dvd : 1024 ∣ k1_mult2.toNat
  k1_mult3_dvd : 1024 ∣ k1_mult3.toNat
  k1_mult4_dvd : 1024 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S16x4096x64.size a
  hwx1_0 : ∀ i : grid1.Coords, EltTy.bits .bf16 = 32 ∨ (Rect.block (s := S16x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S16x4096x64.size a
  hwx1_1 : ∀ i : grid1.Coords, EltTy.bits .bf16 = 32 ∨ (Rect.block (s := S16x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S16x4096x64.size a
  hwx1_2 : ∀ i : grid1.Coords, EltTy.bits .bf16 = 32 ∨ (Rect.block (s := S16x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S16x4096x64.size a
  hwx1_3 : ∀ i : grid1.Coords, EltTy.bits .bf16 = 32 ∨ (Rect.block (s := S16x4096x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S4096x3072 : Shape := ⟨2, ![4096, 3072]⟩
abbrev S1x3072 : Shape := ⟨2, ![1, 3072]⟩
abbrev S4096x3x16x64 : Shape := ⟨4, ![4096, 3, 16, 64]⟩
abbrev S3x16x4096x64 : Shape := ⟨4, ![3, 16, 4096, 64]⟩
abbrev S1x16x4096x64 : Shape := ⟨4, ![1, 16, 4096, 64]⟩
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S4096x16x64 : Shape := ⟨3, ![4096, 16, 64]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .f32⟩
  | .hbm, ⟨6, _⟩ => ⟨S4096x3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3x16x64, .f32⟩
  | .hbm, ⟨11, _⟩ => ⟨S3x16x4096x64, .f32⟩
  | .hbm, ⟨12, _⟩ => ⟨S1x16x4096x64, .f32⟩
  | .hbm, ⟨13, _⟩ => ⟨S16x4096x64, .f32⟩
  | .hbm, ⟨14, _⟩ => ⟨S1x16x4096x64, .f32⟩
  | .hbm, ⟨15, _⟩ => ⟨S16x4096x64, .f32⟩
  | .hbm, ⟨16, _⟩ => ⟨S1x16x4096x64, .f32⟩
  | .hbm, ⟨17, _⟩ => ⟨S16x4096x64, .f32⟩
  | .hbm, ⟨18, _⟩ => ⟨S16x4096x4096, .f32⟩
  | .hbm, ⟨19, _⟩ => ⟨S_, .f32⟩
  | .hbm, ⟨20, _⟩ => ⟨S_, .f32⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096, .f32⟩
  | .hbm, ⟨25, _⟩ => ⟨S_, .f32⟩
  | .hbm, ⟨26, _⟩ => ⟨S16x4096, .f32⟩
  | .hbm, ⟨27, _⟩ => ⟨S16x4096, .f32⟩
  | .hbm, ⟨28, _⟩ => ⟨S16x4096x1, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x64, .f32⟩
  | .hbm, ⟨38, _⟩ => ⟨S4096x16x64, .f32⟩
  | .hbm, ⟨39, _⟩ => ⟨S4096x1024, .f32⟩
  | .hbm, ⟨40, _⟩ => ⟨S1024x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  shapeCasts_S4096x3072_S4096x3x16x64 : S4096x3072.ShapeCasts S4096x3x16x64
  transposes_S4096x3x16x64_S3x16x4096x64_1_2_0_3 : S4096x3x16x64.Transposes [1, 2, 0, 3] S3x16x4096x64
  slices_S3x16x4096x64_S1x16x4096x64_0_0_0_0 : S3x16x4096x64.Slices ![0, 0, 0, 0] S1x16x4096x64
  shapeCasts_S1x16x4096x64_S16x4096x64 : S1x16x4096x64.ShapeCasts S16x4096x64
  slices_S3x16x4096x64_S1x16x4096x64_1_0_0_0 : S3x16x4096x64.Slices ![1, 0, 0, 0] S1x16x4096x64
  slices_S3x16x4096x64_S1x16x4096x64_2_0_0_0 : S3x16x4096x64.Slices ![2, 0, 0, 0] S1x16x4096x64
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  transposes_S16x4096x64_S4096x16x64_1_0_2 : S16x4096x64.Transposes [1, 0, 2] S4096x16x64
  shapeCasts_S4096x16x64_S4096x1024 : S4096x16x64.ShapeCasts S4096x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x3072_S4096x3072_1_0_0_1_n_n_wf : DotDims.WF S4096x1024 S1024x3072 S4096x3072 [1] [0] [0] [1] [] []
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]
  dot_S4096x1024_S1024x1024_S4096x1024_1_0_0_1_n_n_wf : DotDims.WF S4096x1024 S1024x1024 S4096x1024 [1] [0] [0] [1] [] []

variable [Facts₀]

def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf
def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.LibTransposedDot.lean ====
/-
  A product with the right operand transposed, read at an index, on the extended reals.

  For the dimension numbers of an M×K by N×K product (contract the left operand's axis 1 with the
  right operand's axis 1, no batch axis), the entry (p, q) of the product is ∑ k, a[p, k] · b[q, k]:
  for a matmul into the zero splat and for the host's dot_general. The contraction's one-axis index
  is re-indexed to its coordinate.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's row coordinate is the output's row. -/
theorem lhs_row (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's row coordinate is the output's column. -/
theorem rhs_row (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, q) and contraction coordinate k is (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => exact lhs_row M K N (ix2 p q) _
  | ⟨1, _⟩ => exact ((DotDims.transposedRhs M K N).lhsIdx_val_of_single rfl (ix2 p q) _).trans hk

/-- The right operand's index at output (p, q) and contraction coordinate k is (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => exact rhs_row M K N (ix2 p q) _
  | ⟨1, _⟩ => exact ((DotDims.transposedRhs M K N).rhsIdx_val_of_single rfl (ix2 p q) _).trans hk

/-- The contraction sum at (p, q) is the sum over the shared last coordinate. -/
theorem contr_sum (a : (⟨2, ![M, K]⟩ : Shape).Idx → EReal) (b : (⟨2, ![N, K]⟩ : Shape).Idx → EReal) (p : Fin M) (q : Fin N) :
    (∑ k : (DotDims.transposedRhs M K N).contr.Idx,
        a ((DotDims.transposedRhs M K N).lhsIdx (ix2 p q) k) * b ((DotDims.transposedRhs M K N).rhsIdx (ix2 p q) k))
      = ∑ k : Fin K, a (ix2 p k) * b (ix2 q k) := by
  rw [← Equiv.sum_comp (contrEquiv1 (DotDims.transposedRhs M K N) K rfl rfl).symm]
  refine Finset.sum_congr rfl fun k _ => ?_
  rw [lhsIdx_eq, rhsIdx_eq]

/-- A matmul into the zero splat, read at (p, q). -/
theorem matmul_zero_apply {φ₁ φ₂ : FTy} (prec : Option ContractPrecision)
    (a : FVec Ideal ⟨2, ![M, K]⟩ φ₁) (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) :=
  (Ideal.matmul_constant_zero_apply (DotDims.transposedRhs M K N) prec a b (ix2 p q)).trans (contr_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![N, K]⟩ φ₂) (p : Fin M) (q : Fin N) :
    FloatOps.dotGeneral (DotDims.transposedRhs M K N) prec sched a b (ix2 p q) = ∑ k : Fin K, a (ix2 p k) * b (ix2 q k) :=
  (Ideal.dotGeneral_apply (DotDims.transposedRhs M K N) prec sched a b (ix2 p q)).trans (contr_sum M K N a b p q)

end Idealize.ShloMosaic.TransposedDot

end
-- ==== Proof.KPay0.lean ====
/-
  The projection kernel's block, entry by entry. One grid point of the first and of the last region holds a 1024-row
  block x of activations, a 1024-row block w of weights and a bias row b, and stores x · wᵀ + b: entry (p, q) is
  ∑ k, x[p, k] · w[q, k] + b[q]. (The first region stores it as a [1, 1024, 1024] slab in the narrower float
  format, which on the extended reals is the same number.)
-/
import proofs.«101157_j37984690766438_2_alg».proof.Proof.Gen.KernelIdeal.Skeleton
import proofs.«101157_j37984690766438_2_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Ker

open Cert.KernelIdeal Cert.KernelIdeal.Gen Idealize.ShloMosaic Idealize.ShloMosaic.ValueIdx

/-- x · wᵀ + b at (p, q), for blocks read as plain functions of their indices. -/
def projBlock (x w : S1024x1024.Idx → EReal) (b : S1x1024.Idx → EReal) (p q : Fin 1024) : EReal :=
  (∑ k : Fin 1024, x (ix2 p k) * w (ix2 q k)) + b (ix2 (0 : Fin 1) q)

/-- The first region's stored slab at (u, p, q). -/
theorem pay0_apply (x0 x1 : Vec Ideal S1024x1024 .bf16) (x2 : Vec Ideal S1x1024 .f32) (u : Fin 1) (p q : Fin 1024) :
    k0_pay1 (F := Ideal) x0 x1 x2 (ix3 u p q) = projBlock x0 x1 x2 p q := by
  unfold k0_pay1 projBlock
  refine (shapeCast_ab_1ab_apply _ _ u p q).trans ?_
  refine (truncf_apply (ψ := .bf16) _ bitsLt_bf16_f32 (ix2 p q)).trans ?_
  refine (addf_apply _ _ _).trans ?_
  refine congrArg₂ (· + ·) ?_ ?_
  · refine (TransposedDot.matmul_zero_apply 1024 1024 1024 none _ _ p q).trans ?_
    refine Finset.sum_congr rfl fun k _ => ?_
    rw [shapeCast_self, shapeCast_self]
  · refine (broadcastTo_1b_ab_apply _ _ p q).trans ?_
    rw [shapeCast_self]

/-- The last region's stored block at (p, q). -/
theorem pay2_apply (x0 x1 : Vec Ideal S1024x1024 .bf16) (x2 : Vec Ideal S1x1024 .f32) (p q : Fin 1024) :
    k2_pay1 (F := Ideal) x0 x1 x2 (ix2 p q) = projBlock x0 x1 x2 p q := by
  unfold k2_pay1 projBlock
  refine (addf_apply _ _ _).trans ?_
  refine congrArg₂ (· + ·) ?_ ?_
  · refine (TransposedDot.matmul_zero_apply 1024 1024 1024 none _ _ p q).trans ?_
    refine Finset.sum_congr rfl fun k _ => ?_
    rw [shapeCast_self, shapeCast_self]
  · refine (broadcastTo_1b_ab_apply _ _ p q).trans ?_
    rw [shapeCast_self]

end Cert.Attn.Ker

end
-- ==== Proof.KReg0.lean ====
/-
  What the first region leaves in its output array, whatever the buffers held when it was entered: the slab
  out[n, s, o] = ∑ k, a[s, k] · w[n·1024 + o, k] + b[0, n·1024 + o] of its three input arrays. Grid point (i, n)
  reads rows i·1024 … of a, rows n·1024 … of w and columns n·1024 … of b, and writes rows i·1024 … of slice n; the
  twelve blocks tile the array.
-/
import proofs.«101157_j37984690766438_2_alg».proof.Proof.Gen.KernelIdeal.Frame
import proofs.«101157_j37984690766438_2_alg».proof.Proof.KPay0

set_option maxRecDepth 16384

noncomputable section

open scoped BigOperators

namespace Cert.Attn.Ker

open Cert.KernelIdeal Cert.KernelIdeal.Gen Idealize.ShloMosaic Idealize.ShloMosaic.ValueIdx Idealize.ShloMosaic.TcCoe
open Idealize.SL Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Entry (n, s, o) of the slab. -/
def slabAt (a : S4096x1024.Idx → EReal) (w : S3072x1024.Idx → EReal) (b : S1x3072.Idx → EReal)
    (n : Fin 3) (s : Fin 4096) (o : Fin 1024) : EReal :=
  (∑ k : Fin 1024, a (ix2 s k) * w (ix2 (⟨n.val * 1024 + o.val, by omega⟩ : Fin 3072) k))
    + b (ix2 (0 : Fin 1) (⟨n.val * 1024 + o.val, by omega⟩ : Fin 3072))

/-- The slab as an array. -/
def slab (a : S4096x1024.Idx → EReal) (w : S3072x1024.Idx → EReal) (b : S1x3072.Idx → EReal) : S3x4096x1024.Idx → EReal :=
  fun i => slabAt a w b (i 0) (i 1) (i 2)

variable (V : (c : Dev nD) → (b : Ref sig .tc) → Buf (Elt Ideal) ((c : Thread nD τ).loc b))

/-- How the four windows' block indices are tied at a grid point. -/
theorem idx_facts0 : ∀ t : Fin cfg0.N,
    win0_0.index t (0 : Fin 2) = win0_3.index t (1 : Fin 3) ∧ win0_0.index t (1 : Fin 2) = 0
    ∧ win0_1.index t (0 : Fin 2) = win0_3.index t (0 : Fin 3) ∧ win0_1.index t (1 : Fin 2) = 0
    ∧ win0_2.index t (0 : Fin 2) = 0 ∧ win0_2.index t (1 : Fin 2) = win0_3.index t (0 : Fin 3)
    ∧ win0_3.index t (2 : Fin 3) = 0 ∧ win0_3.index t (0 : Fin 3) ≤ 2 ∧ win0_3.index t (1 : Fin 3) ≤ 3 :=
  (by decide +kernel : ∀ t : Fin grid0.N, _)

/-- Every block of the output is some point's. -/
theorem idx_onto0 : ∀ (q0 : Fin 3) (q1 : Fin 4), ∃ t : Fin cfg0.N, win0_3.index t = ![q0.val, q1.val, 0] :=
  (by decide +kernel : ∀ (q0 : Fin 3) (q1 : Fin 4), ∃ t : Fin grid0.N, win0_3.index t = ![q0.val, q1.val, 0])

/-- What a point writes back is its block of the slab. -/
theorem flushed0 (c : Dev nD) (t : Fin cfg0.N) :
    (dat0 V c).flushed 3 t
      = ((cfg0.win 3).blk t).view.read (Elt Ideal) (slab (V c main_v0) (V c main_v1) (V c main_v3)) := by
  show (cfg0.win 3).cut (grid0.coords t) ((dat0 V c).after 3 t) = _
  rw [after0_3]
  unfold out0_3
  rw [View.canon_unit_zero hz3]
  simp only [View.ld_unit_zero (S := S1024x1024) hz2, View.ld_unit_zero (S := S1x1024) hz2]
  obtain ⟨e0, e1, e2, e3, e4, e5, e6, e7, e8⟩ := idx_facts0 t
  funext j
  obtain ⟨u, p, q, rfl⟩ : ∃ (u : Fin 1) (p q : Fin 1024), j = ix3 u p q := ⟨j 0, j 1, j 2, eq_ix3 j⟩
  show k0_pay1 (iblk0 V c 0 t) (iblk0 V c 1 t) (iblk0 V c 2 t) (ix3 u p q)
    = slab (V c main_v0) (V c main_v1) (V c main_v3) (((cfg0.win 3).blk t).view.emb (ix3 u p q))
  refine (pay0_apply (iblk0 V c 0 t) (iblk0 V c 1 t) (iblk0 V c 2 t) u p q).trans ?_
  have hu : u.val = 0 := by omega
  unfold projBlock slab slabAt
  refine congrArg₂ (· + ·) (Finset.sum_congr rfl fun k _ => congrArg₂ (· * ·) ?_ ?_) ?_
  · show V c main_v0 (((cfg0.win 0).blk t).view.emb (ix2 p k)) = V c main_v0 _
    refine congrArg _ (funext fun a => Fin.ext ?_)
    match a with
    | ⟨0, _⟩ => show win0_0.index t (0 : Fin 2) * 1024 + 1 * p.val = win0_3.index t (1 : Fin 3) * 1024 + 1 * p.val; omega
    | ⟨1, _⟩ => show win0_0.index t (1 : Fin 2) * 1024 + 1 * k.val = k.val; omega
  · show V c main_v1 (((cfg0.win 1).blk t).view.emb (ix2 q k)) = V c main_v1 _
    refine congrArg _ (funext fun a => Fin.ext ?_)
    match a with
    | ⟨0, _⟩ =>
      show win0_1.index t (0 : Fin 2) * 1024 + 1 * q.val
        = (win0_3.index t (0 : Fin 3) * 1 + 1 * u.val) * 1024 + (win0_3.index t (2 : Fin 3) * 1024 + 1 * q.val)
      omega
    | ⟨1, _⟩ => show win0_1.index t (1 : Fin 2) * 1024 + 1 * k.val = k.val; omega
  · show V c main_v3 (((cfg0.win 2).blk t).view.emb (ix2 (0 : Fin 1) q)) = V c main_v3 _
    refine congrArg _ (funext fun a => Fin.ext ?_)
    match a with
    | ⟨0, _⟩ => show win0_2.index t (0 : Fin 2) * 1 + 1 * 0 = 0; omega
    | ⟨1, _⟩ =>
      show win0_2.index t (1 : Fin 2) * 1024 + 1 * q.val
        = (win0_3.index t (0 : Fin 3) * 1 + 1 * u.val) * 1024 + (win0_3.index t (2 : Fin 3) * 1024 + 1 * q.val)
      omega

/-- An index of the output array is in a point's block iff each coordinate is in the block's range. -/
theorem mem_blk0 (t : Fin cfg0.N) (i : S3x4096x1024.Idx) :
    i ∈ ((cfg0.win 3).blk t).view.set
      ↔ ∀ a : Fin 3, win0_3.index t a * S1x1024x1024.size a ≤ (i a).val
          ∧ (i a).val < win0_3.index t a * S1x1024x1024.size a + S1x1024x1024.size a := by
  show i ∈ ((View.whole main_v4).slice (win0_3.rect t)).set ↔ _
  rw [View.set_slice_whole, Rect.mem_set_unit]
  exact Iff.rfl

/-- The blocks cover the output array. -/
theorem cover0 (i : S3x4096x1024.Idx) :
    ∃ t : Fin cfg0.N, (cfg0.win 3).flush t = true ∧ i ∈ ((cfg0.win 3).blk t).view.set := by
  have hi0 : (i 0).val < 3 := (i 0).isLt
  have hi1 : (i 1).val < 4096 := (i 1).isLt
  have hi2 : (i 2).val < 1024 := (i 2).isLt
  obtain ⟨t, ht⟩ := idx_onto0 ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- The output array after the region is the slab of the three input arrays as the region found them. -/
theorem final0 (c : Dev nD) :
    (dat0 V c).arrAt 3 cfg0.N = slab (V c main_v0) (V c main_v1) (V c main_v3) :=
  (dat0 V c).arrAt_eq_of_cover 3 (slab (V c main_v0) (V c main_v1) (V c main_v3)) (fun t _ => flushed0 V c t) cover0

end Cert.Attn.Ker

end
-- ==== Proof.Spec.lean ====
/-
  The mathematics of one multi-head self-attention layer, as functions of its five arguments, on the extended reals.

  A token s has a query, a key and a value per head h: the three slices n = 0, 1, 2 of the row
  x[s, ·] · W[n·1024 + h·64 + d, ·] + b[n·1024 + h·64 + d]. Head h sends query row q to the softmax over the keys k of
  (Q[h, q, ·] · K[h, k, ·]) / 8, averaged against the values V[h, k, d]; the heads' outputs, laid side by side along
  the model axis, go through one more affine map.

  The softmax average is written twice: in the plain form (subtract the row maximum, exponentiate, divide each weight
  by the row's total, then average the values) and in the streaming form that visits the 4096 keys in four tiles of
  1024, keeping a running maximum, a running total and a running weighted sum, each rescaled when the maximum moves.
-/
import Idealize.ShloMosaic.PureOps.Ideal

noncomputable section

open scoped BigOperators

namespace Cert.Attn

open Idealize.ShloMosaic

/-- The row of the stacked weight that produces coordinate d of head h of slice n (query, key or value). -/
def wrow (n : Fin 3) (h : Fin 16) (d : Fin 64) : Fin 3072 := ⟨n.val * 1024 + h.val * 64 + d.val, by omega⟩

/-- The model-axis position of coordinate d of head h. -/
def hcol (h : Fin 16) (d : Fin 64) : Fin 1024 := ⟨h.val * 64 + d.val, by omega⟩

/-- Queries, keys and values: slice n, head h, token s, coordinate d. -/
def qkv (X : Fin 4096 → Fin 1024 → EReal) (W : Fin 3072 → Fin 1024 → EReal) (B : Fin 3072 → EReal)
    (n : Fin 3) (h : Fin 16) (s : Fin 4096) (d : Fin 64) : EReal :=
  (∑ k : Fin 1024, X s k * W (wrow n h d) k) + B (wrow n h d)

/-- The unscaled score of query row q against key row k in head h. -/
def score (T : Fin 3 → Fin 16 → Fin 4096 → Fin 64 → EReal) (h : Fin 16) (q k : Fin 4096) : EReal :=
  ∑ d : Fin 64, T 0 h q d * T 1 h k d

/-- The softmax average in its plain form, for one row of unscaled scores s and one column of values v. -/
def plainAttn {N : ℕ} (s v : Fin N → EReal) : EReal :=
  let sc : Fin N → EReal := fun k => Ideal.div (s k) ((8 : ℝ) : EReal)
  let M : EReal := max ⊥ ((Finset.univ : Finset (Fin N)).fold max ⊥ sc)
  let e : Fin N → EReal := fun k => Ideal.exp (sc k - M)
  let L : EReal := 0 + ∑ k, e k
  ∑ k, Ideal.div (e k) L * v k

/-- Tile i (of four) of a row of 4096 entries. -/
def tile (f : Fin 4096 → EReal) (i : Fin 4) (r : Fin 1024) : EReal := f ⟨1024 * i.val + r.val, by omega⟩

/-- The streaming state: running maximum, running total, running weighted sum. -/
structure OState where
  m : EReal
  l : EReal
  acc : EReal

/-- One tile of the streaming softmax: the maximum moves to m', what was accumulated is rescaled by exp (m - m'),
    and the tile's weights exp (g r - m') are added, bare to the total and against the values u to the weighted sum. -/
def ostep (st : OState) (g u : Fin 1024 → EReal) : OState :=
  let m' : EReal := max st.m ((Finset.univ : Finset (Fin 1024)).fold max ⊥ g)
  let a : EReal := Ideal.exp (st.m - m')
  { m := m'
    l := a * st.l + ∑ r, Ideal.exp (g r - m')
    acc := a * st.acc + ∑ r, Ideal.exp (g r - m') * u r }

/-- The scaled scores of tile i. -/
def gtile (s : Fin 4096 → EReal) (i : Fin 4) (r : Fin 1024) : EReal := tile s i r * ((1 / 8 : ℝ) : EReal)

/-- The streaming state after all four tiles. -/
def ofinal (s v : Fin 4096 → EReal) : OState :=
  ostep (ostep (ostep (ostep ⟨⊥, 0, 0⟩ (gtile s 0) (tile v 0)) (gtile s 1) (tile v 1)) (gtile s 2) (tile v 2))
    (gtile s 3) (tile v 3)

/-- The softmax average in its streaming form: the weighted sum over the total, after the last tile. -/
def onlineAttn (s v : Fin 4096 → EReal) : EReal := Ideal.div (ofinal s v).acc (ofinal s v).l

/-- The attention output of head h at query row q, coordinate d, through a given form of the softmax average. -/
def attn (avg : (Fin 4096 → EReal) → (Fin 4096 → EReal) → EReal)
    (T : Fin 3 → Fin 16 → Fin 4096 → Fin 64 → EReal) (h : Fin 16) (q : Fin 4096) (d : Fin 64) : EReal :=
  avg (fun k => score T h q k) (fun k => T 2 h k d)

/-- The layer's output at token s, model coordinate j: the heads' outputs side by side, through the last affine map. -/
def out (A : Fin 16 → Fin 4096 → Fin 64 → EReal) (Wp : Fin 1024 → Fin 1024 → EReal) (Bp : Fin 1024 → EReal)
    (s : Fin 4096) (j : Fin 1024) : EReal :=
  (∑ c : Fin 1024, A ⟨c.val / 64, by omega⟩ s ⟨c.val % 64, Nat.mod_lt _ (by norm_num)⟩ * Wp j c) + Bp j

/-- The whole layer through a given form of the softmax average. -/
def layer (avg : (Fin 4096 → EReal) → (Fin 4096 → EReal) → EReal)
    (X : Fin 4096 → Fin 1024 → EReal) (W : Fin 3072 → Fin 1024 → EReal) (B : Fin 3072 → EReal)
    (Wp : Fin 1024 → Fin 1024 → EReal) (Bp : Fin 1024 → EReal) (s : Fin 4096) (j : Fin 1024) : EReal :=
  out (attn avg (qkv X W B)) Wp Bp s j

end Cert.Attn

end
-- ==== Proof.Consts.lean ====
/-
  The float words the two programs spell, as the extended reals they denote: minus infinity (the start of a running
  maximum), one eighth (the streaming form's score scale), sixty-four (whose square root, eight, is the plain form's
  divisor), and zero.
-/
import Idealize.ShloMosaic.PureOps.Ideal
import Idealize.ShloMosaic.PureOps.Ideal.Laws

noncomputable section

namespace Cert.Consts

open Idealize.ShloMosaic

/-- The word of minus infinity denotes the bottom of the extended reals. -/
theorem ofBits_negInf : Ideal.ofBits .f32 0xFF800000#32 = ⊥ := by
  simp [Ideal.ofBits, Ideal.ieee]

/-- The word of 0.125 denotes one eighth. -/
theorem ofBits_eighth : Ideal.ofBits .f32 0x3E000000#32 = ((1 / 8 : ℝ) : EReal) := by
  simp [Ideal.ofBits, Ideal.ieee, -EReal.coe_mul]; norm_num

/-- The word of 64.0 denotes sixty-four. -/
theorem ofBits_64 : Ideal.ofBits .f32 0x42800000#32 = ((64 : ℝ) : EReal) := by
  simp [Ideal.ofBits, Ideal.ieee, -EReal.coe_mul]; norm_num

/-- The square root of sixty-four is eight. -/
theorem sqrt_64 : Ideal.sqrt (Ideal.ofBits .f32 0x42800000#32) = ((8 : ℝ) : EReal) := by
  rw [ofBits_64, Ideal.sqrt_coe, if_neg (by norm_num)]
  congr 1
  rw [show (64 : ℝ) = 8 * 8 by norm_num]
  exact Real.sqrt_mul_self (by norm_num)

end Cert.Consts

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibRowMax.lean ====
/-
  The maximum of a matrix along its rows, read at an index at the ideal values: a `vector.multi_reduction <maximumf>`
  of an [a, b] matrix along axis 1 is, at row i, the fold of max from the accumulator's value over the entries (i, k).
-/
import Idealize.ShloMosaic.Lib.ValueIdx
import Idealize.ShloMosaic.PureOps.Ideal.Laws

noncomputable section

namespace Cert.LibRowMax

open Idealize.ShloMosaic Idealize.ShloMosaic.ValueIdx

/-- At the ideal values the maximum of an `[a, b]` matrix along its rows is, at `i`, the fold of `max` from the
    accumulator's value over the entries `(i, k)`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

end Cert.LibRowMax

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.KPay1.lean ====
/-
  The attention kernel's block, entry by entry. One grid point holds 1024 query rows q of one head and that head's
  4096 key rows and value rows, which it visits in four tiles of 1024. Per tile: scores s = (q · kᵀ) / 8, the new
  running maximum m' = max m (row maximum of s), the rescale factor a = exp (m - m'), the tile's weights
  p = exp (s - m'), the new total a · l + (row sum of p) and the new weighted sum a · acc + p · v. After the last tile
  it stores acc / l. Read at one query row and one coordinate this is the streaming softmax average of the
  specification, the tile's scores and values being that row's.
-/
import proofs.«101157_j37984690766438_2_alg».proof.Proof.Gen.KernelIdeal.Skeleton
import proofs.«101157_j37984690766438_2_alg».proof.Proof.Spec
import proofs.«101157_j37984690766438_2_alg».proof.Proof.Consts
import proofs.«101157_j37984690766438_2_alg».proof.Proof.LibTransposedDot
import proofs.«101157_j37984690766438_2_alg».proof.Proof.LibPlainDot
import proofs.«101157_j37984690766438_2_alg».proof.Proof.LibRowMax
import proofs.«101157_j37984690766438_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Ker

open Cert.KernelIdeal Cert.KernelIdeal.Gen Idealize.ShloMosaic Idealize.ShloMosaic.ValueIdx

/-- The kernel's running state over a block of 1024 query rows: maximum and total one per row, weighted sum one per
    row and coordinate. -/
structure VState where
  m : FVec Ideal S1024x1 .f32
  l : FVec Ideal S1024x1 .f32
  acc : FVec Ideal S1024x64 .f32

/-- A [1, 1024, 64] tile as a 1024 × 64 matrix. -/
def tmat (x : Vec Ideal S1x1024x64 .bf16) : FVec Ideal S1024x64 .bf16 := shapeCast S1024x64 x shapeCasts_S1x1024x64_S1024x64

/-- The tile's scaled scores. -/
def tScores (q : FVec Ideal S1024x64 .bf16) (kt : Vec Ideal S1x1024x64 .bf16) : FVec Ideal S1024x1024 .f32 :=
  mulf (matmul dot_S1024x64_S1024x64_S1024x1024_1_1_0_0_n_n none q (tmat kt) (constant S1024x1024 .f32 0x00000000#32))
    (broadcast S1024x1024 (Scalar.ofBits .f32 0x3E000000#32))

/-- The new running maximum. -/
def tMax (m : FVec Ideal S1024x1 .f32) (s : FVec Ideal S1024x1024 .f32) : FVec Ideal S1024x1 .f32 :=
  maximumf m (shapeCast S1024x1 (multiReduction .maximumf [1] S1024 s 0xFF800000#32 reduces_S1024x1024_S1024 (.inl rfl) rfl)
    shapeCasts_S1024_S1024x1)

/-- The tile's weights against the new maximum. -/
def tP (s : FVec Ideal S1024x1024 .f32) (m' : FVec Ideal S1024x1 .f32) : FVec Ideal S1024x1024 .f32 :=
  exp (subf s (broadcastTo S1024x1024 m' broadcasts_S1024x1_S1024x1024))

/-- The new total. -/
def tL (a l : FVec Ideal S1024x1 .f32) (p : FVec Ideal S1024x1024 .f32) : FVec Ideal S1024x1 .f32 :=
  addf (mulf a l) (shapeCast S1024x1 (multiReduction .add [1] S1024 p 0x00000000#32 reduces_S1024x1024_S1024 (.inl rfl) rfl)
    shapeCasts_S1024_S1024x1)

/-- The new weighted sum. -/
def tAcc (a : FVec Ideal S1024x1 .f32) (acc : FVec Ideal S1024x64 .f32) (p : FVec Ideal S1024x1024 .f32)
    (vt : Vec Ideal S1x1024x64 .bf16) : FVec Ideal S1024x64 .f32 :=
  addf (mulf (broadcastTo S1024x64 a broadcasts_S1024x1_S1024x64) acc)
    (matmul dot_S1024x1024_S1024x64_S1024x64_1_0_0_1_n_n none (truncf .bf16 p bitsLt_bf16_f32) (tmat vt)
      (constant S1024x64 .f32 0x00000000#32))

/-- One tile. -/
def vstep (st : VState) (q : FVec Ideal S1024x64 .bf16) (kt vt : Vec Ideal S1x1024x64 .bf16) : VState :=
  { m := tMax st.m (tScores q kt)
    l := tL (exp (subf st.m (tMax st.m (tScores q kt)))) st.l (tP (tScores q kt) (tMax st.m (tScores q kt)))
    acc := tAcc (exp (subf st.m (tMax st.m (tScores q kt)))) st.acc (tP (tScores q kt) (tMax st.m (tScores q kt))) vt }

/-- Before the first tile: maximum minus infinity, total and weighted sum zero. -/
def vinit : VState :=
  { m := broadcast S1024x1 (Scalar.ofBits .f32 0xFF800000#32)
    l := broadcast S1024x1 (Scalar.ofBits .f32 0x00000000#32)
    acc := broadcast S1024x64 (Scalar.ofBits .f32 0x00000000#32) }

/-- What is stored after the last tile. -/
def vout (st : VState) : FVec Ideal S1x1024x64 .bf16 :=
  shapeCast S1x1024x64 (truncf .bf16 (divf st.acc (broadcastTo S1024x64 st.l broadcasts_S1024x1_S1024x64)) bitsLt_bf16_f32)
    shapeCasts_S1024x64_S1x1024x64

/-- The stored value, as the kernel's operations nest it over the nine loaded tiles, is four tile steps and the
    final division. -/
theorem pay1_eq (x0 k0 v0 k1 v1 k2 v2 k3 v3 : Vec Ideal S1x1024x64 .bf16) :
    k1_pay20 (F := Ideal) (k1_pay1 x0) (k1_pay13 (k1_pay1 x0) (k1_pay4 x0 k0) (k1_pay8 x0 k0 v0) k1 v1) (k1_pay14 v2)
        (k1_pay16 (k1_pay1 x0) (k1_pay4 x0 k0) k1 k2) (k1_pay17 (k1_pay1 x0) (k1_pay4 x0 k0) k1 k2)
        (k1_pay18 (k1_pay1 x0) (k1_pay4 x0 k0) k1 k2) (k1_pay19 (k1_pay1 x0) (k1_pay4 x0 k0) (k1_pay7 x0 k0) k1 k2) k3 v3
      = vout (vstep (vstep (vstep (vstep vinit (tmat x0) k0 v0) (tmat x0) k1 v1) (tmat x0) k2 v2) (tmat x0) k3 v3) := rfl

/-! ## The tile step read at one query row -/

theorem OState.ext' {a b : OState} (h1 : a.m = b.m) (h2 : a.l = b.l) (h3 : a.acc = b.acc) : a = b := by
  cases a; cases b; simp_all

/-- The state at query row p and coordinate d. -/
def rowState (st : VState) (p : Fin 1024) (d : Fin 64) : OState :=
  { m := st.m (ix2 p (0 : Fin 1)), l := st.l (ix2 p (0 : Fin 1)), acc := st.acc (ix2 p d) }

/-- Row p's scaled score against row r of a key tile. -/
def rowG (q : FVec Ideal S1024x64 .bf16) (kt : Vec Ideal S1x1024x64 .bf16) (p r : Fin 1024) : EReal :=
  (∑ dd : Fin 64, q (ix2 p dd) * kt (ix3 (0 : Fin 1) r dd)) * ((1 / 8 : ℝ) : EReal)

theorem tScores_apply (q : FVec Ideal S1024x64 .bf16) (kt : Vec Ideal S1x1024x64 .bf16) (p r : Fin 1024) :
    tScores q kt (ix2 p r) = rowG q kt p r := by
  unfold tScores rowG
  refine (mulf_apply _ _ _).trans ?_
  refine congrArg₂ (· * ·) ?_ ?_
  · refine (TransposedDot.matmul_zero_apply 1024 64 1024 none q (tmat kt) p r).trans ?_
    refine Finset.sum_congr rfl fun dd _ => congrArg₂ (· * ·) rfl ?_
    exact shapeCast_1ab_ab_apply kt _ r dd
  · show Ideal.ofBits .f32 0x3E000000#32 = _
    exact Cert.Consts.ofBits_eighth

theorem tMax_apply (m : FVec Ideal S1024x1 .f32) (s : FVec Ideal S1024x1024 .f32) (p : Fin 1024) :
    tMax m s (ix2 p (0 : Fin 1))
      = max (m (ix2 p (0 : Fin 1))) ((Finset.univ : Finset (Fin 1024)).fold max ⊥ (fun r => s (ix2 p r))) := by
  unfold tMax
  refine (maximumf_apply _ _ _).trans ?_
  refine congrArg₂ max rfl ?_
  refine (Cert.LibKeepdims.shapeCast_a_a1_apply _ _ p (0 : Fin 1)).trans ?_
  refine (Cert.LibRowMax.rowMax_apply s _ _ _ _ p).trans ?_
  rw [Cert.Consts.ofBits_negInf]

theorem tP_apply (s : FVec Ideal S1024x1024 .f32) (m' : FVec Ideal S1024x1 .f32) (p r : Fin 1024) :
    tP s m' (ix2 p r) = Ideal.exp (s (ix2 p r) - m' (ix2 p (0 : Fin 1))) := by
  unfold tP
  show Ideal.exp (subf s (broadcastTo S1024x1024 m' broadcasts_S1024x1_S1024x1024) (ix2 p r)) = _
  refine congrArg Ideal.exp ?_
  refine (subf_apply _ _ _).trans ?_
  refine congrArg₂ (· - ·) rfl ?_
  exact Cert.LibKeepdims.broadcastTo_a1_ab_apply m' _ p r

theorem tL_apply (a l : FVec Ideal S1024x1 .f32) (p' : FVec Ideal S1024x1024 .f32) (p : Fin 1024) :
    tL a l p' (ix2 p (0 : Fin 1)) = a (ix2 p (0 : Fin 1)) * l (ix2 p (0 : Fin 1)) + ∑ r : Fin 1024, p' (ix2 p r) := by
  unfold tL
  refine (addf_apply _ _ _).trans ?_
  refine congrArg₂ (· + ·) (mulf_apply _ _ _) ?_
  refine (Cert.LibKeepdims.shapeCast_a_a1_apply _ _ p (0 : Fin 1)).trans ?_
  exact Cert.LibKeepdims.rowSum_apply p' _ _ _ _ p

theorem tAcc_apply (a : FVec Ideal S1024x1 .f32) (acc : FVec Ideal S1024x64 .f32) (p' : FVec Ideal S1024x1024 .f32)
    (vt : Vec Ideal S1x1024x64 .bf16) (p : Fin 1024) (d : Fin 64) :
    tAcc a acc p' vt (ix2 p d)
      = a (ix2 p (0 : Fin 1)) * acc (ix2 p d) + ∑ r : Fin 1024, p' (ix2 p r) * vt (ix3 (0 : Fin 1) r d) := by
  unfold tAcc
  refine (addf_apply _ _ _).trans ?_
  refine congrArg₂ (· + ·) ?_ ?_
  · refine (mulf_apply _ _ _).trans ?_
    refine congrArg₂ (· * ·) ?_ rfl
    exact Cert.LibKeepdims.broadcastTo_a1_ab_apply a _ p d
  · refine (PlainDot.matmul_zero_apply 1024 1024 64 none (truncf .bf16 p' bitsLt_bf16_f32) (tmat vt) p d).trans ?_
    refine Finset.sum_congr rfl fun r _ => congrArg₂ (· * ·) rfl ?_
    exact shapeCast_1ab_ab_apply vt _ r d

/-- One tile at a row is one step of the streaming softmax on that row's scores and values. -/
theorem vstep_row (st : VState) (q : FVec Ideal S1024x64 .bf16) (kt vt : Vec Ideal S1x1024x64 .bf16)
    (p : Fin 1024) (d : Fin 64) :
    rowState (vstep st q kt vt) p d
      = ostep (rowState st p d) (rowG q kt p) (fun r => vt (ix3 (0 : Fin 1) r d)) := by
  have hm : tMax st.m (tScores q kt) (ix2 p (0 : Fin 1))
      = max (st.m (ix2 p (0 : Fin 1))) ((Finset.univ : Finset (Fin 1024)).fold max ⊥ (rowG q kt p)) := by
    rw [tMax_apply]
    exact congrArg (fun f => max (st.m (ix2 p (0 : Fin 1))) ((Finset.univ : Finset (Fin 1024)).fold max ⊥ f))
      (funext fun r => tScores_apply q kt p r)
  have ha : (exp (subf st.m (tMax st.m (tScores q kt))) : FVec Ideal S1024x1 .f32) (ix2 p (0 : Fin 1))
      = Ideal.exp (st.m (ix2 p (0 : Fin 1))
          - max (st.m (ix2 p (0 : Fin 1))) ((Finset.univ : Finset (Fin 1024)).fold max ⊥ (rowG q kt p))) := by
    show Ideal.exp (st.m (ix2 p (0 : Fin 1)) - tMax st.m (tScores q kt) (ix2 p (0 : Fin 1))) = _
    rw [hm]
  have hp : ∀ r : Fin 1024, tP (tScores q kt) (tMax st.m (tScores q kt)) (ix2 p r)
      = Ideal.exp (rowG q kt p r
          - max (st.m (ix2 p (0 : Fin 1))) ((Finset.univ : Finset (Fin 1024)).fold max ⊥ (rowG q kt p))) := fun r => by
    rw [tP_apply, tScores_apply, hm]
  refine OState.ext' ?_ ?_ ?_
  · exact hm
  · show tL _ st.l _ (ix2 p (0 : Fin 1)) = _
    rw [tL_apply, ha]
    exact congrArg₂ (· + ·) rfl (Finset.sum_congr rfl fun r _ => hp r)
  · show tAcc _ st.acc _ vt (ix2 p d) = _
    rw [tAcc_apply, ha]
    exact congrArg₂ (· + ·) rfl (Finset.sum_congr rfl fun r _ => congrArg₂ (· * ·) (hp r) rfl)

/-- Before the first tile every row is at (-∞, 0, 0). -/
theorem vinit_row (p : Fin 1024) (d : Fin 64) : rowState vinit p d = ⟨⊥, 0, 0⟩ := by
  refine OState.ext' ?_ ?_ ?_
  · show Ideal.ofBits .f32 0xFF800000#32 = ⊥
    exact Cert.Consts.ofBits_negInf
  · show Ideal.ofBits .f32 0x00000000#32 = 0
    exact Ideal.ofBits_zero_f32
  · show Ideal.ofBits .f32 0x00000000#32 = 0
    exact Ideal.ofBits_zero_f32

/-- The stored entry (u, p, d) is row p's weighted sum over its total. -/
theorem vout_apply (st : VState) (u : Fin 1) (p : Fin 1024) (d : Fin 64) :
    vout st (ix3 u p d) = Ideal.div ((rowState st p d).acc) ((rowState st p d).l) := by
  unfold vout rowState
  refine (shapeCast_ab_1ab_apply _ _ u p d).trans ?_
  refine (truncf_apply (ψ := .bf16) _ bitsLt_bf16_f32 (ix2 p d)).trans ?_
  refine (divf_apply _ _ _).trans ?_
  refine congrArg₂ Ideal.div rfl ?_
  exact Cert.LibKeepdims.broadcastTo_a1_ab_apply st.l _ p d

/-- The kernel's stored entry (u, p, d) over its nine loaded tiles: the streaming softmax of query row p of the block
    against the four key tiles and the four value tiles' coordinate d. -/
theorem pay1_row (x0 k0 v0 k1 v1 k2 v2 k3 v3 : Vec Ideal S1x1024x64 .bf16) (u : Fin 1) (p : Fin 1024) (d : Fin 64) :
    vout (vstep (vstep (vstep (vstep vinit (tmat x0) k0 v0) (tmat x0) k1 v1) (tmat x0) k2 v2) (tmat x0) k3 v3) (ix3 u p d)
      = Ideal.div
          (ostep (ostep (ostep (ostep ⟨⊥, 0, 0⟩ (rowG (tmat x0) k0 p) (fun r => v0 (ix3 (0 : Fin 1) r d)))
            (rowG (tmat x0) k1 p) (fun r => v1 (ix3 (0 : Fin 1) r d)))
            (rowG (tmat x0) k2 p) (fun r => v2 (ix3 (0 : Fin 1) r d)))
            (rowG (tmat x0) k3 p) (fun r => v3 (ix3 (0 : Fin 1) r d))).acc
          (ostep (ostep (ostep (ostep ⟨⊥, 0, 0⟩ (rowG (tmat x0) k0 p) (fun r => v0 (ix3 (0 : Fin 1) r d)))
            (rowG (tmat x0) k1 p) (fun r => v1 (ix3 (0 : Fin 1) r d)))
            (rowG (tmat x0) k2 p) (fun r => v2 (ix3 (0 : Fin 1) r d)))
            (rowG (tmat x0) k3 p) (fun r => v3 (ix3 (0 : Fin 1) r d))).l := by
  rw [vout_apply, vstep_row, vstep_row, vstep_row, vstep_row, vinit_row]

end Cert.Attn.Ker

end
-- ==== Proof.KReg1.lean ====
/-
  What the attention region leaves in its output array, whatever the buffers held when it was entered: entry
  (h, s, d) is the streaming softmax average of query row s of head h against that head's 4096 keys and the
  coordinate d of its values, the three [16, 4096, 64] input arrays read as the region found them. Grid point (h, i)
  holds query rows i·1024 … of head h and all of head h's keys and values, which it loads in four tiles of 1024 rows;
  the 64 blocks tile the array.
-/
import proofs.«101157_j37984690766438_2_alg».proof.Proof.Gen.KernelIdeal.Frame
import proofs.«101157_j37984690766438_2_alg».proof.Proof.KPay1
import proofs.«101157_j37984690766438_2_alg».proof.Proof.KReg0

set_option maxRecDepth 16384

noncomputable section

open scoped BigOperators

namespace Cert.Attn.Ker

open Cert.KernelIdeal Cert.KernelIdeal.Gen Idealize.ShloMosaic Idealize.ShloMosaic.ValueIdx Idealize.ShloMosaic.TcCoe
open Idealize.ShloMosaic.Tactic
open Idealize.SL Idealize.SL.Sem
open Idealize.ShloMosaic.Pipeline (Dat)

/-- The rows o … o + 1023 of a [1, 4096, 64] buffer. -/
abbrev tileRect (o : ℕ) (h : ∀ a, (![0, o, 0] : Fin 3 → Nat) a + S1x1024x64.size a ≤ S1x4096x64.size a) : Rect S1x4096x64 :=
  Rect.unit (s := S1x4096x64) ![0, o, 0] S1x1024x64.size h

theorem tile_inb0 : ∀ a, (![0, 0, 0] : Fin 3 → Nat) a + S1x1024x64.size a ≤ S1x4096x64.size a := by decide
theorem tile_inb1 : ∀ a, (![0, 1024, 0] : Fin 3 → Nat) a + S1x1024x64.size a ≤ S1x4096x64.size a := by decide
theorem tile_inb2 : ∀ a, (![0, 2048, 0] : Fin 3 → Nat) a + S1x1024x64.size a ≤ S1x4096x64.size a := by decide
theorem tile_inb3 : ∀ a, (![0, 3072, 0] : Fin 3 → Nat) a + S1x1024x64.size a ≤ S1x4096x64.size a := by decide

/-- What the body's run leaves in the output's staging buffer, from the three input blocks: four tile steps over the
    four row tiles of the key block and of the value block, and the final division. -/
theorem out1_eq (c : Dev nD) (i : grid1.Coords) (arg2 : Memref sig .tc .vmem S1x1024x64 .bf16) (harg2 : arg2.IsWhole)
    (arg3 : Memref sig .tc .vmem S1x4096x64 .bf16) (harg3 : arg3.IsWhole) (arg4 : Memref sig .tc .vmem S1x4096x64 .bf16)
    (harg4 : arg4.IsWhole) (arg5 : Memref sig .tc .vmem S1x1024x64 .bf16) (harg5 : arg5.IsWhole)
    (x0 : Vec Ideal S1x1024x64 .bf16) (x1 : Vec Ideal S1x4096x64 .bf16) (x2 : Vec Ideal S1x4096x64 .bf16) :
    out1_A_3 (F := Ideal) c i arg2 harg2 arg3 harg3 arg4 harg4 arg5 harg5 x0 x1 x2
      = vout (vstep (vstep (vstep (vstep vinit (tmat x0)
          (View.ld x1 (tileRect 0 tile_inb0)) (View.ld x2 (tileRect 0 tile_inb0))) (tmat x0)
          (View.ld x1 (tileRect 1024 tile_inb1)) (View.ld x2 (tileRect 1024 tile_inb1))) (tmat x0)
          (View.ld x1 (tileRect 2048 tile_inb2)) (View.ld x2 (tileRect 2048 tile_inb2))) (tmat x0)
          (View.ld x1 (tileRect 3072 tile_inb3)) (View.ld x2 (tileRect 3072 tile_inb3))) := by
  unfold out1_A_3
  rw [View.read_writes_eq_canon _ _ _ (cover1_A_3 c i arg2 harg2 arg3 harg3 arg4 harg4 arg5 harg5 x0 x1 x2)]
  unfold kernelRun1_A
  dsimp only
  sl_unfold_words
  rw [View.canon_unit_zero hz3]
  simp only [View.readAt_eq_ld, harg2.read_unread, harg3.read_unread, harg4.read_unread]
  rw [View.ld_unit_zero (S := S1x1024x64) hz3]
  exact pay1_eq x0 (View.ld x1 (tileRect 0 tile_inb0)) (View.ld x2 (tileRect 0 tile_inb0))
    (View.ld x1 (tileRect 1024 tile_inb1)) (View.ld x2 (tileRect 1024 tile_inb1))
    (View.ld x1 (tileRect 2048 tile_inb2)) (View.ld x2 (tileRect 2048 tile_inb2))
    (View.ld x1 (tileRect 3072 tile_inb3)) (View.ld x2 (tileRect 3072 tile_inb3))

/-- The unscaled scores of query row s of head h against every key row. -/
def scoreRow (qa ka : S16x4096x64.Idx → EReal) (h : Fin 16) (s : Fin 4096) : Fin 4096 → EReal :=
  fun k => ∑ dd : Fin 64, qa (ix3 h s dd) * ka (ix3 h k dd)

/-- Coordinate d of every value row of head h. -/
def valCol (va : S16x4096x64.Idx → EReal) (h : Fin 16) (d : Fin 64) : Fin 4096 → EReal := fun k => va (ix3 h k d)

/-- The streaming attention of three [16, 4096, 64] arrays, as an array. -/
def attnArr (qa ka va : S16x4096x64.Idx → EReal) : S16x4096x64.Idx → EReal :=
  fun i => onlineAttn (scoreRow qa ka (i 0) (i 1)) (valCol va (i 0) (i 2))

variable (V : (c : Dev nD) → (b : Ref sig .tc) → Buf (Elt Ideal) ((c : Thread nD τ).loc b))

/-- How the four windows' block indices are tied at a grid point. -/
theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (2 : Fin 3) = 0 ∧ win1_3.index t (0 : Fin 3) ≤ 15 ∧ win1_3.index t (1 : Fin 3) ≤ 3 :=
  (by decide +kernel : ∀ t : Fin grid1.N, _)

/-- Every block of the output is some point's. -/
theorem idx_onto1 : ∀ (q0 : Fin 16) (q1 : Fin 4), ∃ t : Fin cfg1.N, win1_3.index t = ![q0.val, q1.val, 0] :=
  (by decide +kernel : ∀ (q0 : Fin 16) (q1 : Fin 4), ∃ t : Fin grid1.N, win1_3.index t = ![q0.val, q1.val, 0])

/-- A row tile of a point's key (w = 1) or value (w = 2) block is rows o … of that head in the array. -/
theorem keyTile_apply (c : Dev nD) (t : Fin cfg1.N) (o : ℕ)
    (h : ∀ a, (![0, o, 0] : Fin 3 → Nat) a + S1x1024x64.size a ≤ S1x4096x64.size a) (ho : o + 1024 ≤ 4096)
    (hh : Fin 16) (hhv : hh.val = win1_3.index t (0 : Fin 3)) (r : Fin 1024) (dd : Fin 64) :
    View.ld (iblk1 V c 1 t) (tileRect o h) (ix3 (0 : Fin 1) r dd)
      = V c main_v10 (ix3 hh (⟨o + r.val, by omega⟩ : Fin 4096) dd) := by
  obtain ⟨e0, e1, e2, e3, e4, e5, e6, e7, e8, e9, e10, e11⟩ := idx_facts1 t
  show V c main_v10 (((cfg1.win 1).blk t).view.emb ((tileRect o h).idx (ix3 (0 : Fin 1) r dd))) = V c main_v10 _
  refine congrArg _ (funext fun a => Fin.ext ?_)
  match a with
  | ⟨0, _⟩ => show win1_1.index t (0 : Fin 3) * 1 + 1 * (0 + 1 * 0) = hh.val; omega
  | ⟨1, _⟩ => show win1_1.index t (1 : Fin 3) * 4096 + 1 * (o + 1 * r.val) = o + r.val; omega
  | ⟨2, _⟩ => show win1_1.index t (2 : Fin 3) * 64 + 1 * (0 + 1 * dd.val) = dd.val; omega

theorem valTile_apply (c : Dev nD) (t : Fin cfg1.N) (o : ℕ)
    (h : ∀ a, (![0, o, 0] : Fin 3 → Nat) a + S1x1024x64.size a ≤ S1x4096x64.size a) (ho : o + 1024 ≤ 4096)
    (hh : Fin 16) (hhv : hh.val = win1_3.index t (0 : Fin 3)) (r : Fin 1024) (dd : Fin 64) :
    View.ld (iblk1 V c 2 t) (tileRect o h) (ix3 (0 : Fin 1) r dd)
      = V c main_v12 (ix3 hh (⟨o + r.val, by omega⟩ : Fin 4096) dd) := by
  obtain ⟨e0, e1, e2, e3, e4, e5, e6, e7, e8, e9, e10, e11⟩ := idx_facts1 t
  show V c main_v12 (((cfg1.win 2).blk t).view.emb ((tileRect o h).idx (ix3 (0 : Fin 1) r dd))) = V c main_v12 _
  refine congrArg _ (funext fun a => Fin.ext ?_)
  match a with
  | ⟨0, _⟩ => show win1_2.index t (0 : Fin 3) * 1 + 1 * (0 + 1 * 0) = hh.val; omega
  | ⟨1, _⟩ => show win1_2.index t (1 : Fin 3) * 4096 + 1 * (o + 1 * r.val) = o + r.val; omega
  | ⟨2, _⟩ => show win1_2.index t (2 : Fin 3) * 64 + 1 * (0 + 1 * dd.val) = dd.val; omega

/-- A row of a point's query block is that row of that head in the array. -/
theorem qRow_apply (c : Dev nD) (t : Fin cfg1.N) (hh : Fin 16) (hhv : hh.val = win1_3.index t (0 : Fin 3))
    (s : Fin 4096) (p : Fin 1024) (hs : s.val = win1_3.index t (1 : Fin 3) * 1024 + p.val) (dd : Fin 64) :
    tmat (iblk1 V c 0 t) (ix2 p dd) = V c main_v8 (ix3 hh s dd) := by
  obtain ⟨e0, e1, e2, e3, e4, e5, e6, e7, e8, e9, e10, e11⟩ := idx_facts1 t
  unfold tmat
  refine (shapeCast_1ab_ab_apply (iblk1 V c 0 t) _ p dd).trans ?_
  show V c main_v8 (((cfg1.win 0).blk t).view.emb (ix3 (0 : Fin 1) p dd)) = V c main_v8 _
  refine congrArg _ (funext fun a => Fin.ext ?_)
  match a with
  | ⟨0, _⟩ => show win1_0.index t (0 : Fin 3) * 1 + 1 * 0 = hh.val; omega
  | ⟨1, _⟩ => show win1_0.index t (1 : Fin 3) * 1024 + 1 * p.val = s.val; omega
  | ⟨2, _⟩ => show win1_0.index t (2 : Fin 3) * 64 + 1 * dd.val = dd.val; omega

/-- What a point writes back is its block of the streaming attention array. -/
theorem flushed1 (c : Dev nD) (t : Fin cfg1.N) :
    (dat1 V c).flushed 3 t
      = ((cfg1.win 3).blk t).view.read (Elt Ideal) (attnArr (V c main_v8) (V c main_v10) (V c main_v12)) := by
  show (cfg1.win 3).cut (grid1.coords t) ((dat1 V c).after 3 t) = _
  rw [after1_3]
  rw [show outsAt1 V c t = _ from out1_eq c (grid1.coords t) (ms1_0 t) (hs1_0 t) (ms1_1 t) (hs1_1 t) (ms1_2 t) (hs1_2 t)
    (ms1_3 t) (hs1_3 t) (iblk1 V c 0 t) (iblk1 V c 1 t) (iblk1 V c 2 t)]
  obtain ⟨e0, e1, e2, e3, e4, e5, e6, e7, e8, e9, e10, e11⟩ := idx_facts1 t
  funext j
  obtain ⟨u, p, d, rfl⟩ : ∃ (u : Fin 1) (p : Fin 1024) (d : Fin 64), j = ix3 u p d := ⟨j 0, j 1, j 2, eq_ix3 j⟩
  have hu : u.val = 0 := by omega
  obtain ⟨hh, hhv⟩ : ∃ hh : Fin 16, hh.val = win1_3.index t (0 : Fin 3) := ⟨⟨win1_3.index t (0 : Fin 3), by omega⟩, rfl⟩
  obtain ⟨s, hs⟩ : ∃ s : Fin 4096, s.val = win1_3.index t (1 : Fin 3) * 1024 + p.val :=
    ⟨⟨win1_3.index t (1 : Fin 3) * 1024 + p.val, by omega⟩, rfl⟩
  have hE : ((cfg1.win 3).blk t).view.emb (ix3 u p d) = ix3 hh s d := by
    funext a; apply Fin.ext
    match a with
    | ⟨0, _⟩ => show win1_3.index t (0 : Fin 3) * 1 + 1 * u.val = hh.val; omega
    | ⟨1, _⟩ => show win1_3.index t (1 : Fin 3) * 1024 + 1 * p.val = s.val; omega
    | ⟨2, _⟩ => show win1_3.index t (2 : Fin 3) * 64 + 1 * d.val = d.val; omega
  show vout _ (ix3 u p d) = attnArr (V c main_v8) (V c main_v10) (V c main_v12) (((cfg1.win 3).blk t).view.emb (ix3 u p d))
  rw [hE]
  refine (pay1_row (iblk1 V c 0 t)
    (View.ld (iblk1 V c 1 t) (tileRect 0 tile_inb0)) (View.ld (iblk1 V c 2 t) (tileRect 0 tile_inb0))
    (View.ld (iblk1 V c 1 t) (tileRect 1024 tile_inb1)) (View.ld (iblk1 V c 2 t) (tileRect 1024 tile_inb1))
    (View.ld (iblk1 V c 1 t) (tileRect 2048 tile_inb2)) (View.ld (iblk1 V c 2 t) (tileRect 2048 tile_inb2))
    (View.ld (iblk1 V c 1 t) (tileRect 3072 tile_inb3)) (View.ld (iblk1 V c 2 t) (tileRect 3072 tile_inb3)) u p d).trans ?_
  have hg : ∀ (o : ℕ) (h : ∀ a, (![0, o, 0] : Fin 3 → Nat) a + S1x1024x64.size a ≤ S1x4096x64.size a) (ho : o + 1024 ≤ 4096)
      (i : Fin 4) (hi : 1024 * i.val = o),
      rowG (tmat (iblk1 V c 0 t)) (View.ld (iblk1 V c 1 t) (tileRect o h)) p
        = gtile (scoreRow (V c main_v8) (V c main_v10) hh s) i := by
    intro o h ho i hi
    funext r
    unfold rowG gtile tile scoreRow
    refine congrArg₂ (· * ·) (Finset.sum_congr rfl fun dd _ => congrArg₂ (· * ·) (qRow_apply V c t hh hhv s p hs dd) ?_) rfl
    rw [keyTile_apply V c t o h ho hh hhv r dd]
    exact congrArg (fun k => V c main_v10 (ix3 hh k dd)) (Fin.ext (by show o + r.val = 1024 * i.val + r.val; omega))
  have hv : ∀ (o : ℕ) (h : ∀ a, (![0, o, 0] : Fin 3 → Nat) a + S1x1024x64.size a ≤ S1x4096x64.size a) (ho : o + 1024 ≤ 4096)
      (i : Fin 4) (hi : 1024 * i.val = o),
      (fun r : Fin 1024 => View.ld (iblk1 V c 2 t) (tileRect o h) (ix3 (0 : Fin 1) r d))
        = tile (valCol (V c main_v12) hh d) i := by
    intro o h ho i hi
    funext r
    unfold tile valCol
    rw [valTile_apply V c t o h ho hh hhv r d]
    exact congrArg (fun k => V c main_v12 (ix3 hh k d)) (Fin.ext (by show o + r.val = 1024 * i.val + r.val; omega))
  rw [hg 0 tile_inb0 (by norm_num) 0 (by decide), hg 1024 tile_inb1 (by norm_num) 1 (by decide),
    hg 2048 tile_inb2 (by norm_num) 2 (by decide), hg 3072 tile_inb3 (by norm_num) 3 (by decide),
    hv 0 tile_inb0 (by norm_num) 0 (by decide), hv 1024 tile_inb1 (by norm_num) 1 (by decide),
    hv 2048 tile_inb2 (by norm_num) 2 (by decide), hv 3072 tile_inb3 (by norm_num) 3 (by decide)]
  rfl

/-- An index of the output array is in a point's block iff each coordinate is in the block's range. -/
theorem mem_blk1 (t : Fin cfg1.N) (i : S16x4096x64.Idx) :
    i ∈ ((cfg1.win 3).blk t).view.set
      ↔ ∀ a : Fin 3, win1_3.index t a * S1x1024x64.size a ≤ (i a).val
          ∧ (i a).val < win1_3.index t a * S1x1024x64.size a + S1x1024x64.size a := by
  show i ∈ ((View.whole main_v13).slice (win1_3.rect t)).set ↔ _
  rw [View.set_slice_whole, Rect.mem_set_unit]
  exact Iff.rfl

/-- The blocks cover the output array. -/
theorem cover1 (i : S16x4096x64.Idx) :
    ∃ t : Fin cfg1.N, (cfg1.win 3).flush t = true ∧ i ∈ ((cfg1.win 3).blk t).view.set := by
  have hi0 : (i 0).val < 16 := (i 0).isLt
  have hi1 : (i 1).val < 4096 := (i 1).isLt
  have hi2 : (i 2).val < 64 := (i 2).isLt
  obtain ⟨t, ht⟩ := idx_onto1 ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- The output array after the region is the streaming attention of the three input arrays as the region found them. -/
theorem final1 (c : Dev nD) :
    (dat1 V c).arrAt 3 cfg1.N = attnArr (V c main_v8) (V c main_v10) (V c main_v12) :=
  (dat1 V c).arrAt_eq_of_cover 3 (attnArr (V c main_v8) (V c main_v10) (V c main_v12)) (fun t _ => flushed1 V c t) cover1

end Cert.Attn.Ker

end
-- ==== Proof.KReg2.lean ====
/-
  What the last region leaves in its output array, whatever the buffers held when it was entered: the affine map
  out[s, j] = ∑ k, a[s, k] · w[j, k] + b[0, j] of its three input arrays. Grid point i reads rows i·1024 … of a, all of
  w and b, and writes rows i·1024 … of the output; the four blocks tile the array.
-/
import proofs.«101157_j37984690766438_2_alg».proof.Proof.Gen.KernelIdeal.Frame
import proofs.«101157_j37984690766438_2_alg».proof.Proof.KPay0
import proofs.«101157_j37984690766438_2_alg».proof.Proof.KReg0

set_option maxRecDepth 16384

noncomputable section

open scoped BigOperators

namespace Cert.Attn.Ker

open Cert.KernelIdeal Cert.KernelIdeal.Gen Idealize.ShloMosaic Idealize.ShloMosaic.ValueIdx Idealize.ShloMosaic.TcCoe
open Idealize.SL Idealize.SL.Sem
open Idealize.ShloMosaic.Pipeline (Dat)

/-- The affine map as an array. -/
def affArr (a : S4096x1024.Idx → EReal) (w : S1024x1024.Idx → EReal) (b : S1x1024.Idx → EReal) : S4096x1024.Idx → EReal :=
  fun i => (∑ k : Fin 1024, a (ix2 (i 0) k) * w (ix2 (i 1) k)) + b (ix2 (0 : Fin 1) (i 1))

variable (V : (c : Dev nD) → (b : Ref sig .tc) → Buf (Elt Ideal) ((c : Thread nD τ).loc b))

/-- How the four windows' block indices are tied at a grid point. -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 3 :=
  (by decide +kernel : ∀ t : Fin grid2.N, _)

/-- Every block of the output is some point's. -/
theorem idx_onto2 : ∀ (q0 : Fin 4), ∃ t : Fin cfg2.N, win2_3.index t = ![q0.val, 0] :=
  (by decide +kernel : ∀ (q0 : Fin 4), ∃ t : Fin grid2.N, win2_3.index t = ![q0.val, 0])

/-- What a point writes back is its block of the affine map. -/
theorem flushed2 (c : Dev nD) (t : Fin cfg2.N) :
    (dat2 V c).flushed 3 t
      = ((cfg2.win 3).blk t).view.read (Elt Ideal) (affArr (V c main_v15) (V c main_v2) (V c main_v16)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1x1024) hz2]
  obtain ⟨e0, e1, e2, e3, e4, e5, e6, e7⟩ := idx_facts2 t
  funext j
  obtain ⟨p, q, rfl⟩ : ∃ (p q : Fin 1024), j = ix2 p q := ⟨j 0, j 1, eq_ix2 j⟩
  show k2_pay1 (iblk2 V c 0 t) (iblk2 V c 1 t) (iblk2 V c 2 t) (ix2 p q)
    = affArr (V c main_v15) (V c main_v2) (V c main_v16) (((cfg2.win 3).blk t).view.emb (ix2 p q))
  refine (pay2_apply (iblk2 V c 0 t) (iblk2 V c 1 t) (iblk2 V c 2 t) p q).trans ?_
  unfold projBlock affArr
  refine congrArg₂ (· + ·) (Finset.sum_congr rfl fun k _ => congrArg₂ (· * ·) ?_ ?_) ?_
  · show V c main_v15 (((cfg2.win 0).blk t).view.emb (ix2 p k)) = V c main_v15 _
    refine congrArg _ (funext fun a => Fin.ext ?_)
    match a with
    | ⟨0, _⟩ => show win2_0.index t (0 : Fin 2) * 1024 + 1 * p.val = win2_3.index t (0 : Fin 2) * 1024 + 1 * p.val; omega
    | ⟨1, _⟩ => show win2_0.index t (1 : Fin 2) * 1024 + 1 * k.val = k.val; omega
  · show V c main_v2 (((cfg2.win 1).blk t).view.emb (ix2 q k)) = V c main_v2 _
    refine congrArg _ (funext fun a => Fin.ext ?_)
    match a with
    | ⟨0, _⟩ => show win2_1.index t (0 : Fin 2) * 1024 + 1 * q.val = win2_3.index t (1 : Fin 2) * 1024 + 1 * q.val; omega
    | ⟨1, _⟩ => show win2_1.index t (1 : Fin 2) * 1024 + 1 * k.val = k.val; omega
  · show V c main_v16 (((cfg2.win 2).blk t).view.emb (ix2 (0 : Fin 1) q)) = V c main_v16 _
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- An index of the output array is in a point's block iff each coordinate is in the block's range. -/
theorem mem_blk2 (t : Fin cfg2.N) (i : S4096x1024.Idx) :
    i ∈ ((cfg2.win 3).blk t).view.set
      ↔ ∀ a : Fin 2, win2_3.index t a * S1024x1024.size a ≤ (i a).val
          ∧ (i a).val < win2_3.index t a * S1024x1024.size a + S1024x1024.size a := by
  show i ∈ ((View.whole main_v17).slice (win2_3.rect t)).set ↔ _
  rw [View.set_slice_whole, Rect.mem_set_unit]
  exact Iff.rfl

/-- The blocks cover the output array. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region is the affine map of the three input arrays as the region found them. -/
theorem final2 (c : Dev nD) :
    (dat2 V c).arrAt 3 cfg2.N = affArr (V c main_v15) (V c main_v2) (V c main_v16) :=
  (dat2 V c).arrAt_eq_of_cover 3 (affArr (V c main_v15) (V c main_v2) (V c main_v16)) (fun t _ => flushed2 V c t) cover2

end Cert.Attn.Ker

end
-- ==== Proof.KHost.lean ====
/-
  The kernel program's host stretches read at an index, from any contents of the buffers: the three narrowing copies of
  the arguments keep every entry, the bias vectors gain a leading unit axis, the stacked projections [3, 4096, 1024]
  are cut into heads and sliced into queries, keys and values [16, 4096, 64], and the heads' outputs [16, 4096, 64]
  are laid side by side along the model axis [4096, 1024].
-/
import proofs.«101157_j37984690766438_2_alg».proof.Proof.Gen.KernelIdeal.Launch
import proofs.«101157_j37984690766438_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.Attn.KHost

open Cert.KernelIdeal Cert.KernelIdeal.Gen Idealize.ShloMosaic Idealize.ShloMosaic.ValueIdx Idealize.ShloMosaic.TcCoe
  Idealize.ShloMosaic.StableHlo Idealize.SL.Sem

variable (W : Valuation Cert.KernelIdeal.τ Cert.KernelIdeal.sig (Elt Ideal))

/-! ## The first stretch: narrowing copies of the arguments, and the stacked bias as one row -/

/-- The narrowed tokens keep every entry. -/
theorem after0_v0 (i : S4096x1024.Idx) :
    (StableHlo.after (hostOps0 (F := Ideal)) W (Proc.devRef .tc main_v0) : S4096x1024.Idx → EReal) i
      = (W (Proc.devRef .tc main_arg0) : S4096x1024.Idx → EReal) i := by
  have e : (StableHlo.after (hostOps0 (F := Ideal)) W (Proc.devRef .tc main_v0) : S4096x1024.Idx → EReal)
      = (truncf .bf16 (W (Proc.devRef .tc main_arg0) : FVec Ideal S4096x1024 .f32) bitsLt_bf16_f32
          : FVec Ideal S4096x1024 .bf16) := by
    after_results
  rw [e]
  rfl

/-- The narrowed stacked weight keeps every entry. -/
theorem after0_v1 (i : S3072x1024.Idx) :
    (StableHlo.after (hostOps0 (F := Ideal)) W (Proc.devRef .tc main_v1) : S3072x1024.Idx → EReal) i
      = (W (Proc.devRef .tc main_arg1) : S3072x1024.Idx → EReal) i := by
  have e : (StableHlo.after (hostOps0 (F := Ideal)) W (Proc.devRef .tc main_v1) : S3072x1024.Idx → EReal)
      = (truncf .bf16 (W (Proc.devRef .tc main_arg1) : FVec Ideal S3072x1024 .f32) bitsLt_bf16_f32
          : FVec Ideal S3072x1024 .bf16) := by
    after_results
  rw [e]
  rfl

/-- The narrowed last weight keeps every entry. -/
theorem after0_v2 (i : S1024x1024.Idx) :
    (StableHlo.after (hostOps0 (F := Ideal)) W (Proc.devRef .tc main_v2) : S1024x1024.Idx → EReal) i
      = (W (Proc.devRef .tc main_arg3) : S1024x1024.Idx → EReal) i := by
  have e : (StableHlo.after (hostOps0 (F := Ideal)) W (Proc.devRef .tc main_v2) : S1024x1024.Idx → EReal)
      = (truncf .bf16 (W (Proc.devRef .tc main_arg3) : FVec Ideal S1024x1024 .f32) bitsLt_bf16_f32
          : FVec Ideal S1024x1024 .bf16) := by
    after_results
  rw [e]
  rfl

/-- The stacked bias as one row: entry (0, o) is entry o. -/
theorem after0_v3 (o : Fin 3072) :
    (StableHlo.after (hostOps0 (F := Ideal)) W (Proc.devRef .tc main_v3) : S1x3072.Idx → EReal) (ix2 (0 : Fin 1) o)
      = (W (Proc.devRef .tc main_arg2) : S3072.Idx → EReal) (ix1 o) := by
  have e : (StableHlo.after (hostOps0 (F := Ideal)) W (Proc.devRef .tc main_v3) : S1x3072.Idx → EReal)
      = shapeCast S1x3072 (W (Proc.devRef .tc main_arg2) : S3072.Idx → EReal) shapeCasts_S3072_S1x3072 := by
    after_results
    rfl
  rw [e]
  exact shapeCast_a_1a_apply _ _ _ _

/-- The last bias is not written by the first stretch. -/
theorem after0_arg4 :
    StableHlo.after (hostOps0 (F := Ideal)) W (Proc.devRef .tc main_arg4) = W (Proc.devRef .tc main_arg4) := by
  after_results

/-! ## The second stretch: the stacked projections cut into heads -/

/-- The stacked projections [3, 4096, 1024] with the model axis split as 16 × 64 and the head axis moved ahead of
    the token axis. -/
abbrev heads : S3x16x4096x64.Idx → EReal :=
  transpose S3x16x4096x64 [0, 2, 1, 3]
    (shapeCast S3x4096x16x64 (W (Proc.devRef .tc main_v4) : S3x4096x1024.Idx → EReal) shapeCasts_S3x4096x1024_S3x4096x16x64)
    transposes_S3x4096x16x64_S3x16x4096x64_0_2_1_3

/-- Entry (n, h, s, d) of the cut is entry (n, s, h·64 + d) of the stacked projections. -/
theorem heads_at (n : Fin 3) (h : Fin 16) (s : Fin 4096) (d : Fin 64) :
    heads W (ix4 n h s d) = (W (Proc.devRef .tc main_v4) : S3x4096x1024.Idx → EReal) (ix3 n s (Cert.Attn.hcol h d)) := by
  unfold heads
  rw [transpose_apply [0, 2, 1, 3] _ transposes_S3x4096x16x64_S3x16x4096x64_0_2_1_3 (ix4 n h s d) (ix4 n s h d)
    (fun b => match b with
      | ⟨0, _⟩ => rfl
      | ⟨1, _⟩ => rfl
      | ⟨2, _⟩ => rfl
      | ⟨3, _⟩ => rfl)]
  exact shapeCast_apply _ shapeCasts_S3x4096x1024_S3x4096x16x64 (ix4 n s h d) (ix3 n s (Cert.Attn.hcol h d)) (by
    rewrite [Shape.rowMajor_val_three, Shape.rowMajor_val_four]
    have hn := n.isLt; have hh := h.isLt; have hs := s.isLt; have hd := d.isLt
    show (n.val * 4096 + s.val) * 1024 + (h.val * 64 + d.val) = ((n.val * 4096 + s.val) * 16 + h.val) * 64 + d.val
    omega)

/-- The queries: slice 0 of the cut. -/
theorem after1_v8 (h : Fin 16) (s : Fin 4096) (d : Fin 64) :
    (StableHlo.after (hostOps1 (F := Ideal)) W (Proc.devRef .tc main_v8) : S16x4096x64.Idx → EReal) (ix3 h s d)
      = (W (Proc.devRef .tc main_v4) : S3x4096x1024.Idx → EReal) (ix3 (0 : Fin 3) s (Cert.Attn.hcol h d)) := by
  have e : (StableHlo.after (hostOps1 (F := Ideal)) W (Proc.devRef .tc main_v8) : S16x4096x64.Idx → EReal)
      = shapeCast S16x4096x64
          (extractStridedSlice S1x16x4096x64 ![0, 0, 0, 0] (heads W) slices_S3x16x4096x64_S1x16x4096x64_0_0_0_0)
          shapeCasts_S1x16x4096x64_S16x4096x64 := by
    after_results
    rfl
  rw [e, shapeCast_1abc_abc_apply,
    extractStridedSlice_apply ![0, 0, 0, 0] (heads W) slices_S3x16x4096x64_S1x16x4096x64_0_0_0_0
      (ix4 (0 : Fin 1) h s d) (ix4 (0 : Fin 3) h s d) (fun a => match a with
        | ⟨0, _⟩ => rfl
        | ⟨1, _⟩ => by show h.val = 0 + h.val; omega
        | ⟨2, _⟩ => by show s.val = 0 + s.val; omega
        | ⟨3, _⟩ => by show d.val = 0 + d.val; omega),
    heads_at]

/-- The keys: slice 1 of the cut. -/
theorem after1_v10 (h : Fin 16) (s : Fin 4096) (d : Fin 64) :
    (StableHlo.after (hostOps1 (F := Ideal)) W (Proc.devRef .tc main_v10) : S16x4096x64.Idx → EReal) (ix3 h s d)
      = (W (Proc.devRef .tc main_v4) : S3x4096x1024.Idx → EReal) (ix3 (1 : Fin 3) s (Cert.Attn.hcol h d)) := by
  have e : (StableHlo.after (hostOps1 (F := Ideal)) W (Proc.devRef .tc main_v10) : S16x4096x64.Idx → EReal)
      = shapeCast S16x4096x64
          (extractStridedSlice S1x16x4096x64 ![1, 0, 0, 0] (heads W) slices_S3x16x4096x64_S1x16x4096x64_1_0_0_0)
          shapeCasts_S1x16x4096x64_S16x4096x64 := by
    after_results
    rfl
  rw [e, shapeCast_1abc_abc_apply,
    extractStridedSlice_apply ![1, 0, 0, 0] (heads W) slices_S3x16x4096x64_S1x16x4096x64_1_0_0_0
      (ix4 (0 : Fin 1) h s d) (ix4 (1 : Fin 3) h s d) (fun a => match a with
        | ⟨0, _⟩ => rfl
        | ⟨1, _⟩ => by show h.val = 0 + h.val; omega
        | ⟨2, _⟩ => by show s.val = 0 + s.val; omega
        | ⟨3, _⟩ => by show d.val = 0 + d.val; omega),
    heads_at]

/-- The values: slice 2 of the cut. -/
theorem after1_v12 (h : Fin 16) (s : Fin 4096) (d : Fin 64) :
    (StableHlo.after (hostOps1 (F := Ideal)) W (Proc.devRef .tc main_v12) : S16x4096x64.Idx → EReal) (ix3 h s d)
      = (W (Proc.devRef .tc main_v4) : S3x4096x1024.Idx → EReal) (ix3 (2 : Fin 3) s (Cert.Attn.hcol h d)) := by
  have e : (StableHlo.after (hostOps1 (F := Ideal)) W (Proc.devRef .tc main_v12) : S16x4096x64.Idx → EReal)
      = shapeCast S16x4096x64
          (extractStridedSlice S1x16x4096x64 ![2, 0, 0, 0] (heads W) slices_S3x16x4096x64_S1x16x4096x64_2_0_0_0)
          shapeCasts_S1x16x4096x64_S16x4096x64 := by
    after_results
    rfl
  rw [e, shapeCast_1abc_abc_apply,
    extractStridedSlice_apply ![2, 0, 0, 0] (heads W) slices_S3x16x4096x64_S1x16x4096x64_2_0_0_0
      (ix4 (0 : Fin 1) h s d) (ix4 (2 : Fin 3) h s d) (fun a => match a with
        | ⟨0, _⟩ => rfl
        | ⟨1, _⟩ => by show h.val = 0 + h.val; omega
        | ⟨2, _⟩ => by show s.val = 0 + s.val; omega
        | ⟨3, _⟩ => by show d.val = 0 + d.val; omega),
    heads_at]

/-- The narrowed last weight is not written by the second stretch. -/
theorem after1_v2 :
    StableHlo.after (hostOps1 (F := Ideal)) W (Proc.devRef .tc main_v2) = W (Proc.devRef .tc main_v2) := by
  after_results

/-- Nor is the last bias. -/
theorem after1_arg4 :
    StableHlo.after (hostOps1 (F := Ideal)) W (Proc.devRef .tc main_arg4) = W (Proc.devRef .tc main_arg4) := by
  after_results

/-! ## The third stretch: the heads side by side, and the last bias as one row -/

/-- Model coordinate c of token s is coordinate c mod 64 of head c / 64. -/
theorem after2_v15 (s : Fin 4096) (c : Fin 1024) :
    (StableHlo.after (hostOps2 (F := Ideal)) W (Proc.devRef .tc main_v15) : S4096x1024.Idx → EReal) (ix2 s c)
      = (W (Proc.devRef .tc main_v13) : S16x4096x64.Idx → EReal)
          (ix3 (⟨c.val / 64, by omega⟩ : Fin 16) s (⟨c.val % 64, Nat.mod_lt _ (by norm_num)⟩ : Fin 64)) := by
  have e : (StableHlo.after (hostOps2 (F := Ideal)) W (Proc.devRef .tc main_v15) : S4096x1024.Idx → EReal)
      = shapeCast S4096x1024
          (transpose S4096x16x64 [1, 0, 2] (W (Proc.devRef .tc main_v13) : S16x4096x64.Idx → EReal)
            transposes_S16x4096x64_S4096x16x64_1_0_2)
          shapeCasts_S4096x16x64_S4096x1024 := by
    after_results
    rfl
  rw [e, shapeCast_apply _ shapeCasts_S4096x16x64_S4096x1024 (ix2 s c)
    (ix3 s (⟨c.val / 64, by omega⟩ : Fin 16) (⟨c.val % 64, Nat.mod_lt _ (by norm_num)⟩ : Fin 64)) (by
      rewrite [Shape.rowMajor_val_three, Shape.rowMajor_val_two]
      have hs := s.isLt; have hc := c.isLt
      show (s.val * 16 + c.val / 64) * 64 + c.val % 64 = s.val * 1024 + c.val
      omega)]
  exact transpose_apply [1, 0, 2] _ transposes_S16x4096x64_S4096x16x64_1_0_2 _
    (ix3 (⟨c.val / 64, by omega⟩ : Fin 16) s (⟨c.val % 64, Nat.mod_lt _ (by norm_num)⟩ : Fin 64))
    (fun b => match b with
      | ⟨0, _⟩ => rfl
      | ⟨1, _⟩ => rfl
      | ⟨2, _⟩ => rfl)

/-- The last bias as one row: entry (0, j) is entry j. -/
theorem after2_v16 (j : Fin 1024) :
    (StableHlo.after (hostOps2 (F := Ideal)) W (Proc.devRef .tc main_v16) : S1x1024.Idx → EReal) (ix2 (0 : Fin 1) j)
      = (W (Proc.devRef .tc main_arg4) : S1024.Idx → EReal) (ix1 j) := by
  have e : (StableHlo.after (hostOps2 (F := Ideal)) W (Proc.devRef .tc main_v16) : S1x1024.Idx → EReal)
      = shapeCast S1x1024 (W (Proc.devRef .tc main_arg4) : S1024.Idx → EReal) shapeCasts_S1024_S1x1024 := by
    after_results
    rfl
  rw [e]
  exact shapeCast_a_1a_apply _ _ _ _

/-- The narrowed last weight is not written by the third stretch. -/
theorem after2_v2 :
    StableHlo.after (hostOps2 (F := Ideal)) W (Proc.devRef .tc main_v2) = W (Proc.devRef .tc main_v2) := by
  after_results

end Cert.Attn.KHost

end
-- ==== Proof.KValue.lean ====
/-
  The kernel program's result as a function of its arguments. Reading back from the result buffer: the last region
  leaves the affine map of (the attention output laid out token by model coordinate, the projection weight, the
  projection bias); the attention output is the transpose and reshape of what the attention region leaves, the
  streaming attention of the queries, keys and values; those are the three slices of the first region's slab, cut
  into heads by a reshape and a transpose; the slab is x · Wᵀ + b of the first three arguments. Composed, entry
  (s, j) of the result is the layer of the specification, with the softmax average in its streaming form.
-/
import proofs.«101157_j37984690766438_2_alg».proof.Proof.Gen.KernelIdeal.Frame
import proofs.«101157_j37984690766438_2_alg».proof.Proof.KernelFrameVal
import proofs.«101157_j37984690766438_2_alg».proof.Proof.KReg0
import proofs.«101157_j37984690766438_2_alg».proof.Proof.KReg1
import proofs.«101157_j37984690766438_2_alg».proof.Proof.KReg2
import proofs.«101157_j37984690766438_2_alg».proof.Proof.KHost
import proofs.«101157_j37984690766438_2_alg».proof.Proof.Spec

set_option maxRecDepth 16384

noncomputable section

open scoped BigOperators

namespace Cert.Attn.Ker

open Cert.KernelIdeal Cert.KernelIdeal.Gen Idealize.ShloMosaic Idealize.ShloMosaic.ValueIdx Idealize.ShloMosaic.TcCoe
open Idealize.SL Idealize.SL.Sem
open Cert.Attn.KHost

variable (m : (ℓ : Loc nD τ sig) → Buf (Elt Ideal) ℓ) (ρ : Dev nD → PrngReg)

/-- The five arguments as functions of their coordinates. -/
def argX (c : Dev nD) : Fin 4096 → Fin 1024 → EReal :=
  fun s k => (m ((c.tc : Thread nD τ).loc main_arg0) : S4096x1024.Idx → EReal) (ix2 s k)
def argW (c : Dev nD) : Fin 3072 → Fin 1024 → EReal :=
  fun o k => (m ((c.tc : Thread nD τ).loc main_arg1) : S3072x1024.Idx → EReal) (ix2 o k)
def argB (c : Dev nD) : Fin 3072 → EReal :=
  fun o => (m ((c.tc : Thread nD τ).loc main_arg2) : S3072.Idx → EReal) (ix1 o)
def argWp (c : Dev nD) : Fin 1024 → Fin 1024 → EReal :=
  fun j k => (m ((c.tc : Thread nD τ).loc main_arg3) : S1024x1024.Idx → EReal) (ix2 j k)
def argBp (c : Dev nD) : Fin 1024 → EReal :=
  fun j => (m ((c.tc : Thread nD τ).loc main_arg4) : S1024.Idx → EReal) (ix1 j)

/-- After the first region the slab holds x · Wᵀ + b of the arguments. -/
theorem slab_at (c : Dev nD) (n : Fin 3) (s : Fin 4096) (o : Fin 1024) :
    (W2 m ρ c (Proc.devRef .tc main_v4) : S3x4096x1024.Idx → EReal) (ix3 n s o)
      = (∑ k : Fin 1024, argX m c s k * argW m c (⟨n.val * 1024 + o.val, by omega⟩ : Fin 3072) k)
          + argB m c (⟨n.val * 1024 + o.val, by omega⟩ : Fin 3072) := by
  have h : W2 m ρ c (Proc.devRef .tc main_v4) = (dat0 (V1 m ρ) c).arrAt 3 cfg0.N := W2_arr m ρ c 3
  rw [h, final0 (V1 m ρ) c]
  show slabAt _ _ _ n s o = _
  unfold slabAt argX argW argB
  refine congrArg₂ (· + ·) (Finset.sum_congr rfl fun k _ => congrArg₂ (· * ·) ?_ ?_) ?_
  · exact after0_v0 (W0 m ρ c) (ix2 s k)
  · exact after0_v1 (W0 m ρ c) (ix2 _ k)
  · exact after0_v3 (W0 m ρ c) _

/-- The row of the stacked weight, as the slab numbers it. -/
theorem wrow_eq (n : Fin 3) (h : Fin 16) (d : Fin 64) :
    wrow n h d = (⟨n.val * 1024 + (hcol h d).val, by have := (hcol h d).isLt; omega⟩ : Fin 3072) :=
  Fin.ext (Nat.add_assoc _ _ _)

/-- Entering the attention region, the three input arrays are the queries, keys and values of the specification. -/
theorem q_at (c : Dev nD) (h : Fin 16) (s : Fin 4096) (d : Fin 64) :
    (V3 m ρ c main_v8 : S16x4096x64.Idx → EReal) (ix3 h s d) = qkv (argX m c) (argW m c) (argB m c) 0 h s d := by
  refine (after1_v8 (W2 m ρ c) h s d).trans ?_
  rw [slab_at m ρ c 0 s (hcol h d)]
  unfold qkv
  rw [wrow_eq]

theorem k_at (c : Dev nD) (h : Fin 16) (s : Fin 4096) (d : Fin 64) :
    (V3 m ρ c main_v10 : S16x4096x64.Idx → EReal) (ix3 h s d) = qkv (argX m c) (argW m c) (argB m c) 1 h s d := by
  refine (after1_v10 (W2 m ρ c) h s d).trans ?_
  rw [slab_at m ρ c 1 s (hcol h d)]
  unfold qkv
  rw [wrow_eq]

theorem v_at (c : Dev nD) (h : Fin 16) (s : Fin 4096) (d : Fin 64) :
    (V3 m ρ c main_v12 : S16x4096x64.Idx → EReal) (ix3 h s d) = qkv (argX m c) (argW m c) (argB m c) 2 h s d := by
  refine (after1_v12 (W2 m ρ c) h s d).trans ?_
  rw [slab_at m ρ c 2 s (hcol h d)]
  unfold qkv
  rw [wrow_eq]

/-- After the attention region its output array holds the streaming attention of the specification. -/
theorem attn_at (c : Dev nD) (h : Fin 16) (s : Fin 4096) (d : Fin 64) :
    (W4 m ρ c (Proc.devRef .tc main_v13) : S16x4096x64.Idx → EReal) (ix3 h s d)
      = attn onlineAttn (qkv (argX m c) (argW m c) (argB m c)) h s d := by
  have hA : W4 m ρ c (Proc.devRef .tc main_v13) = (dat1 (V3 m ρ) c).arrAt 3 cfg1.N := W4_arr m ρ c 3
  rw [hA, final1 (V3 m ρ) c]
  show onlineAttn (scoreRow _ _ h s) (valCol _ h d) = _
  unfold attn score scoreRow valCol
  refine congrArg₂ onlineAttn (funext fun k => Finset.sum_congr rfl fun dd _ => congrArg₂ (· * ·) ?_ ?_) (funext fun k => ?_)
  · exact q_at m ρ c h s dd
  · exact k_at m ρ c h k dd
  · exact v_at m ρ c h k d

/-- The projection weight reaches the last region as launched. -/
theorem wp_at (c : Dev nD) (j k : Fin 1024) :
    (V5 m ρ c main_v2 : S1024x1024.Idx → EReal) (ix2 j k) = argWp m c j k := by
  have h5 : W5 m ρ c (Proc.devRef .tc main_v2) = W4 m ρ c (Proc.devRef .tc main_v2) := after2_v2 (W4 m ρ c)
  have h4 : W4 m ρ c (Proc.devRef .tc main_v2) = W3 m ρ c (Proc.devRef .tc main_v2) := W4_of_ne m ρ c main_v2 (by decide)
  have h3 : W3 m ρ c (Proc.devRef .tc main_v2) = W2 m ρ c (Proc.devRef .tc main_v2) := after1_v2 (W2 m ρ c)
  have h2 : W2 m ρ c (Proc.devRef .tc main_v2) = W1 m ρ c (Proc.devRef .tc main_v2) := W2_of_ne m ρ c main_v2 (by decide)
  show (W5 m ρ c (Proc.devRef .tc main_v2) : S1024x1024.Idx → EReal) (ix2 j k) = _
  rw [h5, h4, h3, h2]
  exact after0_v2 (W0 m ρ c) (ix2 j k)

/-- The projection bias reaches the last region as launched. -/
theorem bp_at (c : Dev nD) (j : Fin 1024) :
    (V5 m ρ c main_v16 : S1x1024.Idx → EReal) (ix2 (0 : Fin 1) j) = argBp m c j := by
  have h4 : W4 m ρ c (Proc.devRef .tc main_arg4) = W3 m ρ c (Proc.devRef .tc main_arg4) := W4_of_ne m ρ c main_arg4 (by decide)
  have h3 : W3 m ρ c (Proc.devRef .tc main_arg4) = W2 m ρ c (Proc.devRef .tc main_arg4) := after1_arg4 (W2 m ρ c)
  have h2 : W2 m ρ c (Proc.devRef .tc main_arg4) = W1 m ρ c (Proc.devRef .tc main_arg4) := W2_of_ne m ρ c main_arg4 (by decide)
  have h1 : W1 m ρ c (Proc.devRef .tc main_arg4) = W0 m ρ c (Proc.devRef .tc main_arg4) := after0_arg4 (W0 m ρ c)
  refine (after2_v16 (W4 m ρ c) j).trans ?_
  rw [h4, h3, h2, h1]
  rfl

/-- The result buffer after the run is the layer of the arguments, the softmax average in its streaming form. -/
theorem result_at (c : Dev nD) (s : Fin 4096) (j : Fin 1024) :
    (W6 m ρ c (Proc.devRef .tc main_v17) : S4096x1024.Idx → EReal) (ix2 s j)
      = layer onlineAttn (argX m c) (argW m c) (argB m c) (argWp m c) (argBp m c) s j := by
  have hA : W6 m ρ c (Proc.devRef .tc main_v17) = (dat2 (V5 m ρ) c).arrAt 3 cfg2.N := W6_arr m ρ c 3
  rw [hA, final2 (V5 m ρ) c]
  show affArr _ _ _ (ix2 s j) = _
  unfold affArr layer out
  refine congrArg₂ (· + ·) (Finset.sum_congr rfl fun k _ => congrArg₂ (· * ·) ?_ ?_) ?_
  · refine (after2_v15 (W4 m ρ c) s k).trans ?_
    exact attn_at m ρ c _ s _
  · exact wp_at m ρ c j k
  · exact bp_at m ρ c j

/-- The kernel program's run, with its result named. -/
theorem run_value : θ_run defs (onTc (τ := τ) (main (F := Ideal))) ⟨m, fun _ => 0, ρ⟩ (fun r => ∀ c : Dev nD,
      r.2.mem ((c.tc : Thread nD τ).loc main_v17)
        = (fun i : S4096x1024.Idx => layer onlineAttn (argX m c) (argW m c) (argB m c) (argWp m c) (argBp m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (funext fun i => by
      obtain ⟨s, j, rfl⟩ : ∃ (s : Fin 4096) (j : Fin 1024), i = ix2 s j := ⟨i 0, i 1, eq_ix2 i⟩
      exact result_at m ρ c s j), (h c).2⟩)
    (Cert.KernelIdeal.GenP.frame_val m ρ)

end Cert.Attn.Ker

end
-- ==== Proof.RefSide.lean ====
/-
  The reference program read as mathematics. Each of its operations is read at an index built from coordinates, and the
  chain of readings is the multi-head self-attention layer with the softmax average in its plain form: the stacked
  affine map, its three slices per head, the scaled scores, the row maximum taken from minus infinity, the exponentials
  and their total taken from zero, the normalised weights against the values, the heads laid side by side, and the last
  affine map.
-/
import proofs.«101157_j37984690766438_2_alg».proof.Proof.Gen.ReferenceIdeal.Read
import proofs.«101157_j37984690766438_2_alg».proof.Proof.Spec
import proofs.«101157_j37984690766438_2_alg».proof.Proof.Consts
import Idealize.ShloMosaic.Lib.ValueIdx
import Idealize.ShloMosaic.Lib.Pipeline.Value
import Idealize.ShloMosaic.PureOps.Ideal.Laws

noncomputable section

open scoped BigOperators

namespace Cert.Attn.Ref

open Cert.ReferenceIdeal Cert.ReferenceIdeal.Gen Cert.ReferenceIdeal.Read Idealize.ShloMosaic Idealize.ShloMosaic.ValueIdx

variable (x0 : (⟨S4096x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-! ## The arguments as functions of coordinates -/

/-- The tokens: row s, model coordinate k. -/
abbrev X : Fin 4096 → Fin 1024 → EReal := fun s k => x0 (ix2 s k)
/-- The stacked weight: output row o, model coordinate k. -/
abbrev W : Fin 3072 → Fin 1024 → EReal := fun o k => x1 (ix2 o k)
/-- The stacked bias. -/
abbrev B : Fin 3072 → EReal := fun o => x2 (ix1 o)
/-- The last weight: output coordinate j, input coordinate c. -/
abbrev Wp : Fin 1024 → Fin 1024 → EReal := fun j c => x3 (ix2 j c)
/-- The last bias. -/
abbrev Bp : Fin 1024 → EReal := fun j => x4 (ix1 j)

/-! ## The stacked affine map -/

/-- Entry (s, o) of x · Wᵀ + b. -/
theorem v4_at (s : Fin 4096) (o : Fin 3072) :
    val_main_v4 (F := Ideal) x0 x1 x2 (ix2 s o) = (∑ k : Fin 1024, X x0 s k * W x1 o k) + B x2 o := by
  rw [val_main_v4_apply, val_main_v1_apply, val_main_v3_apply, val_main_v2_apply]
  refine congrArg₂ (· + ·) (Finset.sum_congr rfl fun k _ => ?_) ?_
  · rw [val_main_v0_apply]
    exact congrArg₂ (· * ·)
      (congrArg x0 (funext fun a => Fin.ext (by match a with | ⟨0, _⟩ => rfl | ⟨1, _⟩ => rfl)))
      (congrArg x1 (funext fun a => Fin.ext (by match a with | ⟨0, _⟩ => rfl | ⟨1, _⟩ => rfl)))
  · exact congrArg x2 (funext fun a => Fin.ext (by match a with | ⟨0, _⟩ => rfl))

/-! ## Queries, keys and values -/

/-- Splitting the 3072 columns as 3 × 16 × 64 puts column n·1024 + h·64 + d at (n, h, d); moving the token axis third
    keeps the entry. -/
theorem v6_at (n : Fin 3) (h : Fin 16) (s : Fin 4096) (d : Fin 64) :
    val_main_v6 (F := Ideal) x0 x1 x2 (ix4 n h s d) = qkv (X x0) (W x1) (B x2) n h s d := by
  rw [val_main_v6_apply, val_main_v5_apply]
  have e : idx_main_v5 (idx_main_v6 (ix4 n h s d)) = ix2 s (wrow n h d) := funext fun a => Fin.ext (by
    have hn := n.isLt; have hh := h.isLt; have hs := s.isLt; have hd := d.isLt
    match a with
    | ⟨0, _⟩ =>
      show (((s.val * 3 + n.val) * 16 + h.val) * 64 + d.val) / 3072 = s.val
      omega
    | ⟨1, _⟩ =>
      show (((s.val * 3 + n.val) * 16 + h.val) * 64 + d.val) % 3072 = n.val * 1024 + h.val * 64 + d.val
      omega)
  rw [e, v4_at]
  rfl

/-- Dropping the leading unit axis of a [1, 16, 4096, 64] slice keeps the other three coordinates. -/
theorem idx8_at (h : Fin 16) (s : Fin 4096) (d : Fin 64) :
    idx_main_v8 (ix3 h s d) = ix4 (0 : Fin 1) h s d := funext fun a => Fin.ext (by
  have hh := h.isLt; have hs := s.isLt; have hd := d.isLt
  match a with
  | ⟨0, _⟩ => rfl
  | ⟨1, _⟩ =>
    show ((h.val * 4096 + s.val) * 64 + d.val) / 262144 % 16 = h.val
    omega
  | ⟨2, _⟩ =>
    show ((h.val * 4096 + s.val) * 64 + d.val) / 64 % 4096 = s.val
    omega
  | ⟨3, _⟩ =>
    show ((h.val * 4096 + s.val) * 64 + d.val) % 64 = d.val
    omega)

/-- The queries. -/
theorem v8_at (h : Fin 16) (s : Fin 4096) (d : Fin 64) :
    val_main_v8 (F := Ideal) x0 x1 x2 (ix3 h s d) = qkv (X x0) (W x1) (B x2) 0 h s d := by
  rw [val_main_v8_apply, val_main_v7_apply, idx8_at,
    show idx_main_v7 (ix4 (0 : Fin 1) h s d) = ix4 (0 : Fin 3) h s d from
      funext fun a => Fin.ext (by match a with | ⟨0, _⟩ => rfl | ⟨1, _⟩ => rfl | ⟨2, _⟩ => rfl | ⟨3, _⟩ => rfl),
    v6_at]

/-- The keys. -/
theorem v10_at (h : Fin 16) (s : Fin 4096) (d : Fin 64) :
    val_main_v10 (F := Ideal) x0 x1 x2 (ix3 h s d) = qkv (X x0) (W x1) (B x2) 1 h s d := by
  rw [val_main_v10_apply, val_main_v9_apply, show idx_main_v10 (ix3 h s d) = idx_main_v8 (ix3 h s d) from rfl, idx8_at,
    show idx_main_v9 (ix4 (0 : Fin 1) h s d) = ix4 (1 : Fin 3) h s d from
      funext fun a => Fin.ext (by match a with | ⟨0, _⟩ => rfl | ⟨1, _⟩ => rfl | ⟨2, _⟩ => rfl | ⟨3, _⟩ => rfl),
    v6_at]

/-- The values. -/
theorem v12_at (h : Fin 16) (s : Fin 4096) (d : Fin 64) :
    val_main_v12 (F := Ideal) x0 x1 x2 (ix3 h s d) = qkv (X x0) (W x1) (B x2) 2 h s d := by
  rw [val_main_v12_apply, val_main_v11_apply, show idx_main_v12 (ix3 h s d) = idx_main_v8 (ix3 h s d) from rfl, idx8_at,
    show idx_main_v11 (ix4 (0 : Fin 1) h s d) = ix4 (2 : Fin 3) h s d from
      funext fun a => Fin.ext (by match a with | ⟨0, _⟩ => rfl | ⟨1, _⟩ => rfl | ⟨2, _⟩ => rfl | ⟨3, _⟩ => rfl),
    v6_at]

/-! ## The scaled scores -/

/-- The unscaled score of query row q against key row k in head h. -/
theorem v13_at (h : Fin 16) (q k : Fin 4096) :
    val_main_v13 (F := Ideal) x0 x1 x2 (ix3 h q k) = score (qkv (X x0) (W x1) (B x2)) h q k := by
  rw [val_main_v13_apply]
  refine Finset.sum_congr rfl fun d _ => ?_
  rw [show lidx_main_v13 (ix3 h q k) d = ix3 h q d from
      funext fun a => Fin.ext (by match a with | ⟨0, _⟩ => rfl | ⟨1, _⟩ => rfl | ⟨2, _⟩ => rfl),
    show ridx_main_v13 (ix3 h q k) d = ix3 h k d from
      funext fun a => Fin.ext (by match a with | ⟨0, _⟩ => rfl | ⟨1, _⟩ => rfl | ⟨2, _⟩ => rfl),
    v8_at, v10_at]

/-- The divisor is the square root of sixty-four, everywhere. -/
theorem v15_at (i : S16x4096x4096.Idx) : val_main_v15 (F := Ideal) i = ((8 : ℝ) : EReal) := by
  rw [val_main_v15_apply, val_main_v14_apply, val_main_cst_apply, Ideal.hostUnary_sqrt_def, Ideal.ofBits_def]
  exact Cert.Consts.sqrt_64

/-- The scaled score. -/
def sc (h : Fin 16) (q k : Fin 4096) : EReal :=
  Ideal.div (score (qkv (X x0) (W x1) (B x2)) h q k) ((8 : ℝ) : EReal)

theorem v16_at (h : Fin 16) (q k : Fin 4096) :
    val_main_v16 (F := Ideal) x0 x1 x2 (ix3 h q k) = sc x0 x1 x2 h q k := by
  rw [val_main_v16_apply, Ideal.hostDivf_def, v13_at, v15_at]
  rfl

/-! ## The row maximum, from minus infinity -/

/-- The row index (h, q) with key k put back on the reduced axis is (h, q, k). -/
theorem lift_at (hr : S16x4096x4096.Reduces [2] S16x4096) (h : Fin 16) (q : Fin 4096) (k : Fin (S16x4096x4096.size 2)) :
    hr.lift (ix2 h q) k = ix3 h q (⟨k.val, k.isLt⟩ : Fin 4096) := by
  funext c; apply Fin.ext
  match c with
  | ⟨0, _⟩ => rfl
  | ⟨1, _⟩ => rfl
  | ⟨2, _⟩ => rfl

/-- The reduce with a maximum body over the key axis is the fold of max from minus infinity over the keys. -/
theorem v17_at (h : Fin 16) (q : Fin 4096) :
    val_main_v17 (F := Ideal) x0 x1 x2 (ix2 h q)
      = (Finset.univ : Finset (Fin 4096)).fold max ⊥ (fun k => sc x0 x1 x2 h q k) := by
  have hr : S16x4096x4096.Reduces [2] S16x4096 := by decide
  unfold val_main_v17
  rw [Host.reduce_eq_fold_single FloatOps.maximumf _ _ _ hr h_S_]
  have hi : val_main_cst_0 (F := Ideal) (Shape.Idx.first h_S_) = (⊥ : EReal) := by
    rw [val_main_cst_0_apply, Ideal.ofBits_def]; exact Cert.Consts.ofBits_negInf
  rw [hi]
  have hf : (val_main_v16 (F := Ideal) x0 x1 x2 ∘ hr.lift (ix2 h q)) = fun k : Fin 4096 => sc x0 x1 x2 h q k :=
    funext fun k => by
      show val_main_v16 (F := Ideal) x0 x1 x2 (hr.lift (ix2 h q) k) = _
      rw [lift_at, v16_at]
      rfl
  exact congrArg (fun f => Finset.fold max (⊥ : EReal) f (Finset.univ : Finset (Fin 4096))) hf

/-- The row maximum as the program takes it: the larger of minus infinity and the fold. -/
def rowMax (h : Fin 16) (q : Fin 4096) : EReal :=
  max ⊥ ((Finset.univ : Finset (Fin 4096)).fold max ⊥ (fun k => sc x0 x1 x2 h q k))

theorem v19_at (h : Fin 16) (q : Fin 4096) :
    val_main_v19 (F := Ideal) x0 x1 x2 (ix2 h q) = rowMax x0 x1 x2 h q := by
  rw [val_main_v19_apply, Ideal.maximumf_def, v17_at, val_main_v18_apply, val_main_cst_1_apply, Ideal.ofBits_def,
    Cert.Consts.ofBits_negInf]
  rfl

/-! ## The exponentials, their total from zero, and the normalised weights -/

/-- The exponential of a scaled score less its row's maximum. -/
def ew (h : Fin 16) (q k : Fin 4096) : EReal := Ideal.exp (sc x0 x1 x2 h q k - rowMax x0 x1 x2 h q)

theorem v23_at (h : Fin 16) (q k : Fin 4096) :
    val_main_v23 (F := Ideal) x0 x1 x2 (ix3 h q k) = ew x0 x1 x2 h q k := by
  rw [val_main_v23_apply, Ideal.hostUnary_exp_def, val_main_v22_apply, Ideal.subf_def, v16_at, val_main_v21_apply,
    val_main_v20_apply,
    show idx_main_v20 (idx_main_v21 (ix3 h q k)) = ix2 h q from
      funext fun a => Fin.ext (by match a with | ⟨0, _⟩ => rfl | ⟨1, _⟩ => rfl),
    v19_at]
  rfl

/-- A row's total. -/
def rowSum (h : Fin 16) (q : Fin 4096) : EReal := 0 + ∑ k : Fin 4096, ew x0 x1 x2 h q k

theorem v24_at (h : Fin 16) (q : Fin 4096) :
    val_main_v24 (F := Ideal) x0 x1 x2 (ix2 h q) = rowSum x0 x1 x2 h q := by
  rw [val_main_v24_apply, val_main_cst_2_apply, Ideal.ofBits_def, Ideal.ofBits_zero_f32]
  refine congrArg (0 + ·) (Finset.sum_congr rfl fun k _ => ?_)
  rw [show idx_main_v24 (ix2 h q) k = ix3 h q k from
      funext fun a => Fin.ext (by match a with | ⟨0, _⟩ => rfl | ⟨1, _⟩ => rfl | ⟨2, _⟩ => rfl),
    v23_at]

theorem v27_at (h : Fin 16) (q k : Fin 4096) :
    val_main_v27 (F := Ideal) x0 x1 x2 (ix3 h q k) = Ideal.div (ew x0 x1 x2 h q k) (rowSum x0 x1 x2 h q) := by
  rw [val_main_v27_apply, Ideal.hostDivf_def, v23_at, val_main_v26_apply, val_main_v25_apply,
    show idx_main_v25 (idx_main_v26 (ix3 h q k)) = ix2 h q from
      funext fun a => Fin.ext (by match a with | ⟨0, _⟩ => rfl | ⟨1, _⟩ => rfl),
    v24_at]

/-! ## The weights against the values -/

/-- The softmax average in its plain form, written out. -/
theorem plainAttn_eq (s v : Fin 4096 → EReal) :
    plainAttn s v
      = ∑ k, Ideal.div (Ideal.exp (Ideal.div (s k) ((8 : ℝ) : EReal)
              - max ⊥ ((Finset.univ : Finset (Fin 4096)).fold max ⊥ fun k => Ideal.div (s k) ((8 : ℝ) : EReal))))
            (0 + ∑ k, Ideal.exp (Ideal.div (s k) ((8 : ℝ) : EReal)
              - max ⊥ ((Finset.univ : Finset (Fin 4096)).fold max ⊥ fun k => Ideal.div (s k) ((8 : ℝ) : EReal)))) * v k :=
  rfl

/-- Head h at query row q, coordinate d. -/
theorem v28_at (h : Fin 16) (q : Fin 4096) (d : Fin 64) :
    val_main_v28 (F := Ideal) x0 x1 x2 (ix3 h q d) = attn plainAttn (qkv (X x0) (W x1) (B x2)) h q d := by
  rw [val_main_v28_apply]
  unfold attn
  rw [plainAttn_eq]
  refine Finset.sum_congr rfl fun k _ => ?_
  rw [show lidx_main_v28 (ix3 h q d) k = ix3 h q k from
      funext fun a => Fin.ext (by match a with | ⟨0, _⟩ => rfl | ⟨1, _⟩ => rfl | ⟨2, _⟩ => rfl),
    show ridx_main_v28 (ix3 h q d) k = ix3 h k d from
      funext fun a => Fin.ext (by match a with | ⟨0, _⟩ => rfl | ⟨1, _⟩ => rfl | ⟨2, _⟩ => rfl),
    v27_at, v12_at]
  rfl

/-! ## The heads side by side, and the last affine map -/

/-- Model coordinate c of token s is coordinate c mod 64 of head c / 64. -/
theorem v30_at (s : Fin 4096) (c : Fin 1024) :
    val_main_v30 (F := Ideal) x0 x1 x2 (ix2 s c)
      = val_main_v28 (F := Ideal) x0 x1 x2
          (ix3 (⟨c.val / 64, by omega⟩ : Fin 16) s (⟨c.val % 64, Nat.mod_lt _ (by norm_num)⟩ : Fin 64)) := by
  rw [val_main_v30_apply, val_main_v29_apply]
  refine congrArg (val_main_v28 (F := Ideal) x0 x1 x2) (funext fun a => Fin.ext ?_)
  have hs := s.isLt; have hc := c.isLt
  match a with
  | ⟨0, _⟩ =>
    show (s.val * 1024 + c.val) / 64 % 16 = c.val / 64
    omega
  | ⟨1, _⟩ =>
    show (s.val * 1024 + c.val) / 1024 = s.val
    omega
  | ⟨2, _⟩ =>
    show (s.val * 1024 + c.val) % 64 = c.val % 64
    omega

/-- The reference program's result at token s, model coordinate j, is the layer with the plain softmax average. -/
theorem ref_layer (s : Fin 4096) (j : Fin 1024) :
    val_main_v35 (F := Ideal) x0 x1 x2 x3 x4 (ix2 s j)
      = layer plainAttn (fun s k => x0 (ix2 s k)) (fun o k => x1 (ix2 o k)) (fun o => x2 (ix1 o))
          (fun j c => x3 (ix2 j c)) (fun j => x4 (ix1 j)) s j := by
  rw [val_main_v35_apply, Ideal.addf_def, val_main_v32_apply, val_main_v34_apply, val_main_v33_apply]
  unfold layer out
  refine congrArg₂ (· + ·) (Finset.sum_congr rfl fun c _ => ?_) ?_
  · rw [show lidx_main_v32 (ix2 s j) c = ix2 s c from
        funext fun a => Fin.ext (by match a with | ⟨0, _⟩ => rfl | ⟨1, _⟩ => rfl),
      v30_at, v28_at, val_main_v31_apply]
    exact congrArg₂ (· * ·) rfl
      (congrArg x3 (funext fun a => Fin.ext (by match a with | ⟨0, _⟩ => rfl | ⟨1, _⟩ => rfl)))
  · exact congrArg x4 (funext fun a => Fin.ext (by match a with | ⟨0, _⟩ => rfl))

end Cert.Attn.Ref

end
-- ==== Proof.OnlineSoftmax.lean ====
/-
  The streaming form of the softmax average equals the plain form, for real scores and real values.

  Both forms are finite computations on the extended reals. At real inputs every intermediate quantity is a real
  number (the one exception is the streaming form's starting maximum, the bottom element, whose only effect is a
  rescale factor exp ⊥ = 0 applied to a zero total). So the proof has two halves: each extended-real expression is the
  coercion of a real expression, and the real expressions agree. The real identity is the shift invariance of the
  softmax average: (∑ exp (c k - m) * v k) / (∑ exp (c k - m)) does not depend on m, because exp (c k - m) is
  exp (M - m) * exp (c k - M) and the common factor cancels. The streaming form keeps, after each tile, the two sums
  over the keys seen so far relative to its current running maximum m; moving the maximum to m' multiplies both by
  exp (m - m'), which is exactly the change of shift.
-/
import proofs.«101157_j37984690766438_2_alg».proof.Proof.Spec

noncomputable section

open scoped BigOperators

namespace Cert.Attn

open Idealize.ShloMosaic

/-! ### Coercions of finite sums and of running maxima -/

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp only [Finset.sum_empty, EReal.coe_zero]
  | insert a t ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- The maximum of a real with the fold of max from ⊥ over coerced reals is a coerced real. -/
theorem max_fold_coe {ι : Type*} (c : ι → ℝ) (t : Finset ι) (b : ℝ) :
    ∃ M : ℝ, max (b : EReal) (t.fold max ⊥ fun k => (c k : EReal)) = (M : EReal) := by
  classical
  induction t using Finset.induction_on with
  | empty => exact ⟨b, by rw [Finset.fold_empty, max_bot_right]⟩
  | insert a t ha ih =>
    obtain ⟨M, hM⟩ := ih
    refine ⟨max (c a) M, ?_⟩
    rw [Finset.fold_insert ha, max_left_comm, hM, coe_max]

/-- Over a nonempty index type the fold of max from ⊥ over coerced reals is a coerced real. -/
theorem fold_max_coe {ι : Type*} [Fintype ι] [Nonempty ι] (c : ι → ℝ) :
    ∃ M : ℝ, (Finset.univ : Finset ι).fold max ⊥ (fun k => (c k : EReal)) = (M : EReal) := by
  classical
  obtain ⟨k0⟩ := ‹Nonempty ι›
  obtain ⟨M, hM⟩ := max_fold_coe c (Finset.univ.erase k0) (c k0)
  refine ⟨M, ?_⟩
  rw [← Finset.insert_erase (Finset.mem_univ k0), Finset.fold_insert (Finset.notMem_erase k0 _), hM]

/-! ### The real identities -/

/-- Changing the shift from m to m' multiplies each weight by exp (m - m'). -/
theorem rescale_sum {ι : Type*} (t : Finset ι) (c : ι → ℝ) (m m' : ℝ) :
    Real.exp (m - m') * ∑ k ∈ t, Real.exp (c k - m) = ∑ k ∈ t, Real.exp (c k - m') := by
  rw [Finset.mul_sum]
  refine Finset.sum_congr rfl fun k _ => ?_
  rw [← Real.exp_add]
  congr 1
  ring

/-- The same for the weighted sum. -/
theorem rescale_wsum {ι : Type*} (t : Finset ι) (c v : ι → ℝ) (m m' : ℝ) :
    Real.exp (m - m') * ∑ k ∈ t, Real.exp (c k - m) * v k = ∑ k ∈ t, Real.exp (c k - m') * v k := by
  rw [Finset.mul_sum]
  refine Finset.sum_congr rfl fun k _ => ?_
  rw [← mul_assoc, ← Real.exp_add]
  congr 2
  ring

/-- The softmax average does not depend on the shift. -/
theorem softmax_shift {ι : Type*} [Fintype ι] [Nonempty ι] (c v : ι → ℝ) (m M : ℝ) :
    (∑ k, Real.exp (c k - m) * v k) * (1 / ∑ k, Real.exp (c k - m))
      = ∑ k, Real.exp (c k - M) * (1 / ∑ k, Real.exp (c k - M)) * v k := by
  have hL : 0 < ∑ k, Real.exp (c k - M) :=
    Finset.sum_pos (fun k _ => Real.exp_pos _) Finset.univ_nonempty
  have hE : 0 < Real.exp (M - m) := Real.exp_pos _
  rw [← rescale_sum Finset.univ c M m, ← rescale_wsum Finset.univ c v M m]
  have hR : ∑ k, Real.exp (c k - M) * (1 / ∑ k, Real.exp (c k - M)) * v k
      = (∑ k, Real.exp (c k - M) * v k) * (1 / ∑ k, Real.exp (c k - M)) := by
    rw [Finset.sum_mul]
    refine Finset.sum_congr rfl fun k _ => ?_
    ring
  rw [hR]
  field_simp

/-! ### One tile of the streaming form at real data -/

/-- The exponential of a difference of coerced reals. -/
theorem exp_sub_coe (a b : ℝ) :
    Ideal.exp ((a : EReal) - (b : EReal)) = ((Real.exp (a - b) : ℝ) : EReal) := by
  rw [← EReal.coe_sub, Ideal.exp_coe]

/-- The first tile. The starting maximum ⊥ gives way to the tile's own maximum m, the rescale factor is
    exp (⊥ - m) = exp ⊥ = 0 against a zero total, and what is left is the tile's sums at shift m. -/
theorem ostep_first (g u : Fin 1024 → ℝ) :
    ∃ m : ℝ, ostep ⟨⊥, 0, 0⟩ (fun r => (g r : EReal)) (fun r => (u r : EReal))
      = ⟨(m : EReal), ((∑ r, Real.exp (g r - m) : ℝ) : EReal),
          ((∑ r, Real.exp (g r - m) * u r : ℝ) : EReal)⟩ := by
  obtain ⟨G, hG⟩ := fold_max_coe g
  refine ⟨G, ?_⟩
  unfold ostep
  simp only [hG, max_bot_left, EReal.bot_sub, Ideal.exp_bot, zero_mul, zero_add, exp_sub_coe, ← EReal.coe_mul,
    ← coe_sum]

/-- A later tile, from a real state: the new maximum m' is real, and the new total and weighted sum are the old ones
    times exp (m - m') plus the tile's sums at shift m'. -/
theorem ostep_real (m l acc : ℝ) (g u : Fin 1024 → ℝ) :
    ∃ m' : ℝ, ostep ⟨(m : EReal), (l : EReal), (acc : EReal)⟩ (fun r => (g r : EReal)) (fun r => (u r : EReal))
      = ⟨(m' : EReal), ((Real.exp (m - m') * l + ∑ r, Real.exp (g r - m') : ℝ) : EReal),
          ((Real.exp (m - m') * acc + ∑ r, Real.exp (g r - m') * u r : ℝ) : EReal)⟩ := by
  obtain ⟨G, hG⟩ := fold_max_coe g
  refine ⟨max m G, ?_⟩
  unfold ostep
  simp only [hG, ← coe_max, exp_sub_coe, ← EReal.coe_mul, ← coe_sum, ← EReal.coe_add]

/-- All four tiles: the final state is real, and its total and weighted sum are the sums over all four tiles at the
    final maximum's shift. Each rescale turns the sums at the old shift into the sums at the new one. -/
theorem ofinal_real (c v : Fin 4 → Fin 1024 → ℝ) (s' v' : Fin 4096 → EReal)
    (hs : ∀ i, gtile s' i = fun r => (c i r : EReal)) (hv : ∀ i, tile v' i = fun r => (v i r : EReal)) :
    ∃ m : ℝ, ofinal s' v' = ⟨(m : EReal), ((∑ i, ∑ r, Real.exp (c i r - m) : ℝ) : EReal),
        ((∑ i, ∑ r, Real.exp (c i r - m) * v i r : ℝ) : EReal)⟩ := by
  unfold ofinal
  rw [hs 0, hs 1, hs 2, hs 3, hv 0, hv 1, hv 2, hv 3]
  obtain ⟨m1, e1⟩ := ostep_first (c 0) (v 0)
  rw [e1]
  obtain ⟨m2, e2⟩ := ostep_real m1 _ _ (c 1) (v 1)
  rw [e2]
  obtain ⟨m3, e3⟩ := ostep_real m2 _ _ (c 2) (v 2)
  rw [e3]
  obtain ⟨m4, e4⟩ := ostep_real m3 _ _ (c 3) (v 3)
  rw [e4]
  refine ⟨m4, ?_⟩
  rw [Fin.sum_univ_four, Fin.sum_univ_four]
  simp only [mul_add, rescale_sum, rescale_wsum]

/-- A sum over the 4096 keys is the sum over the four tiles of the sums over each tile. -/
theorem sum_tiles (f : Fin 4096 → ℝ) :
    ∑ k, f k = ∑ i : Fin 4, ∑ r : Fin 1024, f ⟨1024 * i.val + r.val, by omega⟩ := by
  rw [← Equiv.sum_comp (finProdFinEquiv (m := 4) (n := 1024)) f, Fintype.sum_prod_type]
  refine Finset.sum_congr rfl fun i _ => Finset.sum_congr rfl fun r _ => ?_
  congr 1
  ext
  simp only [finProdFinEquiv, Equiv.coe_fn_mk]
  omega

/-! ### The two forms at real scores and values -/

/-- The plain form at real data, as a real expression at the shift M (the row maximum). -/
theorem plainAttn_real (s v : Fin 4096 → ℝ) :
    ∃ M : ℝ, plainAttn (fun k => (s k : EReal)) (fun k => (v k : EReal))
      = ((∑ k, Real.exp (s k * (1 / 8) - M) * (1 / ∑ k, Real.exp (s k * (1 / 8) - M)) * v k : ℝ) : EReal) := by
  obtain ⟨M, hM⟩ := fold_max_coe (fun k : Fin 4096 => s k * (1 / 8))
  refine ⟨M, ?_⟩
  have h8 : (8 : ℝ) ≠ 0 := by norm_num
  have hL : (∑ k : Fin 4096, Real.exp (s k * (1 / 8) - M)) ≠ 0 :=
    (Finset.sum_pos (fun k _ => Real.exp_pos _) Finset.univ_nonempty).ne'
  unfold plainAttn
  simp only [Ideal.div_coe h8, ← EReal.coe_mul, hM, max_bot_left, exp_sub_coe, zero_add, ← coe_sum,
    Ideal.div_coe hL]

/-- The streaming form at real data, as a real expression at the shift m (the final running maximum). -/
theorem onlineAttn_real (s v : Fin 4096 → ℝ) :
    ∃ m : ℝ, onlineAttn (fun k => (s k : EReal)) (fun k => (v k : EReal))
      = (((∑ k, Real.exp (s k * (1 / 8) - m) * v k) * (1 / ∑ k, Real.exp (s k * (1 / 8) - m)) : ℝ) : EReal) := by
  obtain ⟨m, hm⟩ := ofinal_real (fun i r => s ⟨1024 * i.val + r.val, by omega⟩ * (1 / 8))
    (fun i r => v ⟨1024 * i.val + r.val, by omega⟩) (fun k => (s k : EReal)) (fun k => (v k : EReal))
    (fun i => by funext r; simp only [gtile, tile, EReal.coe_mul]) (fun i => rfl)
  refine ⟨m, ?_⟩
  have hl : (∑ k : Fin 4096, Real.exp (s k * (1 / 8) - m)) ≠ 0 :=
    (Finset.sum_pos (fun k _ => Real.exp_pos _) Finset.univ_nonempty).ne'
  have e1 := sum_tiles (fun k => Real.exp (s k * (1 / 8) - m))
  have e2 := sum_tiles (fun k => Real.exp (s k * (1 / 8) - m) * v k)
  unfold onlineAttn
  rw [hm]
  simp only []
  rw [← e1, ← e2, Ideal.div_coe hl, ← EReal.coe_mul]

/-- The streaming form of the softmax average equals the plain form at real scores and values. -/
theorem onlineAttn_eq_plainAttn (s v : Fin 4096 → ℝ) :
    onlineAttn (fun k => (s k : EReal)) (fun k => (v k : EReal))
      = plainAttn (fun k => (s k : EReal)) (fun k => (v k : EReal)) := by
  obtain ⟨m, hm⟩ := onlineAttn_real s v
  obtain ⟨M, hM⟩ := plainAttn_real s v
  rw [hm, hM, softmax_shift (fun k => s k * (1 / 8)) v m M]

/-! ### The layer -/

/-- Queries, keys and values of real inputs are coerced reals. -/
theorem qkv_coe (X : Fin 4096 → Fin 1024 → ℝ) (W : Fin 3072 → Fin 1024 → ℝ) (B : Fin 3072 → ℝ) :
    qkv (fun s k => (X s k : EReal)) (fun o k => (W o k : EReal)) (fun o => (B o : EReal))
      = fun n h s d => (((∑ k, X s k * W (wrow n h d) k) + B (wrow n h d) : ℝ) : EReal) := by
  funext n h s d
  unfold qkv
  simp only [← EReal.coe_mul, ← coe_sum, ← EReal.coe_add]

/-- Scores of coerced real queries and keys are coerced reals. -/
theorem score_coe (T : Fin 3 → Fin 16 → Fin 4096 → Fin 64 → ℝ) (h : Fin 16) (q k : Fin 4096) :
    score (fun n h s d => (T n h s d : EReal)) h q k = ((∑ d, T 0 h q d * T 1 h k d : ℝ) : EReal) := by
  unfold score
  simp only [← EReal.coe_mul, ← coe_sum]

/-- The whole layer through the streaming form equals the layer through the plain form, at real inputs to the
    attention (the last affine map is the same on both sides and may be anything). -/
theorem layer_online_eq_plain (X : Fin 4096 → Fin 1024 → ℝ) (W : Fin 3072 → Fin 1024 → ℝ) (B : Fin 3072 → ℝ)
    (Wp : Fin 1024 → Fin 1024 → EReal) (Bp : Fin 1024 → EReal) :
    layer onlineAttn (fun s k => (X s k : EReal)) (fun o k => (W o k : EReal)) (fun o => (B o : EReal)) Wp Bp
      = layer plainAttn (fun s k => (X s k : EReal)) (fun o k => (W o k : EReal)) (fun o => (B o : EReal)) Wp Bp := by
  have hA : ∀ (h : Fin 16) (q : Fin 4096) (d : Fin 64),
      attn onlineAttn (qkv (fun s k => (X s k : EReal)) (fun o k => (W o k : EReal)) (fun o => (B o : EReal))) h q d
        = attn plainAttn (qkv (fun s k => (X s k : EReal)) (fun o k => (W o k : EReal)) (fun o => (B o : EReal)))
            h q d := by
    intro h q d
    rw [qkv_coe]
    unfold attn
    simp only [score_coe]
    exact onlineAttn_eq_plainAttn _ _
  funext s j
  unfold layer out
  simp only [hA]

end Cert.Attn

end
-- ==== Proof.Finite.lean ====
/-
  The precondition says that every entry of each argument array has absolute value below +∞. On the extended reals
  |x| is max x (-x), which is ⊤ at both ⊥ and ⊤, so the entries that pass are exactly the real numbers.
-/
import proofs.«101157_j37984690766438_2_alg».proof.Defs
import proofs.«101157_j37984690766438_2_alg».proof.Proof.Gen.Pre_finite_inputs
import Idealize.ShloMosaic.Lib.ValueIdx
import Idealize.ShloMosaic.Lib.ReduceAll
import Idealize.ShloMosaic.PureOps.Ideal.Laws

noncomputable section

namespace Cert.Attn.Fin

open Idealize.ShloMosaic Idealize.SL.Sem

/-- The rank-0 shape has one index. -/
instance subsingleton_idx0 : Subsingleton (⟨0, ![]⟩ : Shape).Idx := ⟨fun a b => funext fun d => d.elim0⟩

/-- The bit pattern 0x7F800000 denotes +∞. -/
theorem inf_eq_top : Ideal.ofBits .f32 0x7F800000#32 = (⊤ : EReal) := by
  simp [Ideal.ofBits, Ideal.ieee]

/-- An extended real whose absolute value max a (-a) is below +∞ is a real number. -/
theorem real_of_abs_lt_inf (a : EReal)
    (h : Ideal.cmp .olt (max a (-a)) (Ideal.ofBits .f32 0x7F800000#32) = 1#1) : ∃ r : ℝ, a = (r : EReal) := by
  rw [inf_eq_top] at h
  induction a using EReal.rec with
  | bot => simp [Ideal.cmp] at h
  | top => simp [Ideal.cmp] at h
  | coe r => exact ⟨r, rfl⟩

/-- If the conjunction over all entries of |x| < +∞ is 1, every entry of x is a real number. -/
theorem all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  have h := Host.reduce_andi_all _ _ hr hu _ e i
  exact real_of_abs_lt_inf (x i) h

/-- Under the precondition every entry of the first three argument arrays is a real number, on every device. -/
theorem finite_args [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have e := congrFun (h c) ValueIdx.ix0
  unfold Cert.Pre_finite_inputs.fn Cert.Pre_finite_inputs.fn_part1 at e
  dsimp only at e
  simp only [andi, IntOp.andi_eq_one] at e
  obtain ⟨⟨⟨⟨e0, e1⟩, e2⟩, -⟩, -⟩ := e
  exact ⟨fun i => all_finite _ _ _ _ e0 i, fun i => all_finite _ _ _ _ e1 i, fun i => all_finite _ _ _ _ e2 i⟩

end Cert.Attn.Fin

end
-- ==== Proof.lean ====
/-
  One multi-head self-attention layer: x ↦ softmax-attention over 16 heads of (x · W_qkvᵀ + b_qkv), then
  · W_projᵀ + b_proj, for 4096 tokens of width 1024.

  The kernel program computes it in three regions — the stacked query/key/value projection, the attention itself as a
  streaming softmax over four tiles of 1024 keys per head, and the output projection — with reshapes and transposes
  between them; the reference computes it with the plain softmax (subtract the row maximum, exponentiate, divide by
  the row total). On the extended reals both results are the same function of the five arguments:

  * the projections and the scores are the same sums of products on both sides, whatever the arguments;
  * the kernel's scale 1/8 times a score is the reference's score divided by √64 = 8;
  * the streaming average equals the plain one because, for real scores, exp (m − m') · exp (c − m) = exp (c − m') when
    the running maximum moves from m to m', the first rescale factor exp (−∞ − m₁) is 0, and dividing a finite sum by
    the positive real total commutes with the sum. This is where finiteness of the first three arguments is used: the
    scores and values must be real numbers.

  The word-level kernel's and the idealized kernel's frames are the generated ones; the reference's frame is its generated
  run; the idealization rewrote nothing, so there is nothing to preserve.
-/
import proofs.«101157_j37984690766438_2_alg».proof.Proof.Gen.Kernel
import proofs.«101157_j37984690766438_2_alg».proof.Proof.Gen.Kernel.Frame
import proofs.«101157_j37984690766438_2_alg».proof.Proof.Gen.KernelIdeal
import proofs.«101157_j37984690766438_2_alg».proof.Proof.Gen.KernelIdeal.Frame
import proofs.«101157_j37984690766438_2_alg».proof.Proof.Gen.ReferenceIdeal
import proofs.«101157_j37984690766438_2_alg».proof.Proof.Gen.Pre_finite_inputs
import proofs.«101157_j37984690766438_2_alg».proof.Proof.Gen.ReferenceIdeal.Run
import proofs.«101157_j37984690766438_2_alg».proof.Proof.Gen.ReferenceIdeal.Read
import proofs.«101157_j37984690766438_2_alg».proof.Proof.KValue
import proofs.«101157_j37984690766438_2_alg».proof.Proof.RefSide
import proofs.«101157_j37984690766438_2_alg».proof.Proof.OnlineSoftmax
import proofs.«101157_j37984690766438_2_alg».proof.Proof.Finite
import proofs.«101157_j37984690766438_2_alg».proof.Defs
import Idealize.ShloMosaic.Adequacy
import Idealize.ShloMosaic.Init

noncomputable section

namespace Cert.Proof

open Idealize.ShloMosaic Idealize.SL.Sem Idealize.ShloMosaic.ValueIdx Cert.Attn Cert.Attn.Ker

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- For real first three arguments the layer in its streaming form is the layer in its plain form. -/
theorem online_plain (m : (ℓ : Loc Cert.KernelIdeal.nD Cert.KernelIdeal.τ Cert.KernelIdeal.sig) → Buf (Elt Ideal) ℓ)
    (hpre : Cert.Pre_KernelIdeal m) (c : Dev Cert.KernelIdeal.nD) :
    layer onlineAttn (argX m c) (argW m c) (argB m c) (argWp m c) (argBp m c)
      = layer plainAttn (argX m c) (argW m c) (argB m c) (argWp m c) (argBp m c) := by
  obtain ⟨h0, h1, h2⟩ := Cert.Attn.Fin.finite_args m hpre c
  choose Xr hX using h0
  choose Wr hW using h1
  choose Br hB using h2
  have eX : argX m c = fun s k => ((Xr (ix2 s k) : ℝ) : EReal) := funext fun s => funext fun k => hX (ix2 s k)
  have eW : argW m c = fun o k => ((Wr (ix2 o k) : ℝ) : EReal) := funext fun o => funext fun k => hW (ix2 o k)
  have eB : argB m c = fun o => ((Br (ix1 o) : ℝ) : EReal) := funext fun o => hB (ix1 o)
  rw [eX, eW, eB]
  exact layer_online_eq_plain (fun s k => Xr (ix2 s k)) (fun o k => Wr (ix2 o k)) (fun o => Br (ix1 o)) (argWp m c) (argBp m c)

/-- The reference's result, from a memory agreeing with the kernel's on the arguments, is the layer in its plain form
    of the kernel's arguments. -/
theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v35 (F := Ideal) m' c
      = (fun i : Cert.KernelIdeal.S4096x1024.Idx =>
          layer plainAttn (argX m c) (argW m c) (argB m c) (argWp m c) (argBp m c) (i 0) (i 1)) := by
  rw [Cert.ReferenceIdeal.Read.val_main_v35_eq, a0, a1, a2, a3, a4]
  funext i
  obtain ⟨s, j, rfl⟩ : ∃ (s : Fin 4096) (j : Fin 1024), i = ix2 s j := ⟨i 0, i 1, eq_ix2 i⟩
  exact Cert.Attn.Ref.ref_layer _ _ _ _ _ s j

/-- Both programs end with the layer of the arguments in its plain form: the kernel's streaming form is the plain one
    because the first three arguments are real, and the reference reads as the plain form directly. -/
theorem algebraic : Cert.algebraic_KernelIdeal_ReferenceIdeal := by
  intro m ρ m' ρ' hpre hagree
  refine ⟨fun c => (fun i : Cert.KernelIdeal.S4096x1024.Idx =>
    layer plainAttn (argX m c) (argW m c) (argB m c) (argWp m c) (argBp m c) (i 0) (i 1)), ?_, ?_⟩
  · exact (θ_run Cert.KernelIdeal.defs _ _).mono (fun r h c => ⟨(h c).1.trans
      (funext fun i => congrFun (congrFun (online_plain m hpre c) (i 0)) (i 1)), (h c).2⟩) (run_value m ρ)
  · exact (θ_run Cert.ReferenceIdeal.defs _ _).mono (fun _ h c => ⟨(h c).1.trans
      (ref_value m m' c (hagree c).1 (hagree c).2.1 (hagree c).2.2.1 (hagree c).2.2.2.1 (hagree c).2.2.2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
